-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S16x1x1024 : Shape := ⟨3, ![16, 1, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S1x1024 : Shape := ⟨2, ![1, 1024]⟩
abbrev S1x512x1024 : Shape := ⟨3, ![1, 512, 1024]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S16x1024 : Shape := ⟨2, ![16, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x3072, .f32⟩
  | .hbm, ⟨11, _⟩ => ⟨S16x1x1024, .f32⟩
  | .hbm, ⟨12, _⟩ => ⟨S16x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x3072, .bf16⟩
  | .local _ .vmem, ⟨3, _⟩ => ⟨S1x3072, .f32⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_20 : BitVec 32 := 0#32
  let v43 : BitVec 1 := Scalar.cmpi .ne v42 c0_i32_20
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x3072_S1024x1024_0_1024 : ∀ a, (![0, 1024] : Fin 2 → Nat) a + S1024x1024.size a ≤ S1024x3072.size a
  h_S1024x1024 : 0 < S1024x1024.numel
  shapeCasts_S1024x1024_S1024x1024 : S1024x1024.ShapeCasts S1024x1024
  inb_S1024x3072_S1024x1024_0_2048 : ∀ a, (![0, 2048] : Fin 2 → Nat) a + S1024x1024.size a ≤ S1024x3072.size a
  inb_S1x3072_S1x1024_0_1024 : ∀ a, (![0, 1024] : Fin 2 → Nat) a + S1x1024.size a ≤ S1x3072.size a
  h_S1x1024 : 0 < S1x1024.numel
  shapeCasts_S1x1024_S1x1024 : S1x1024.ShapeCasts S1x1024
  inb_S1x3072_S1x1024_0_2048 : ∀ a, (![0, 2048] : Fin 2 → Nat) a + S1x1024.size a ≤ S1x3072.size a
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x1024_S1x1024_0_0 : ∀ a, (![0, 0] : Fin 2 → Nat) a + S1x1024.size a ≤ S1x1024.size a
  h_S1x512x1024 : 0 < S1x512x1024.numel
  shapeCasts_S1x512x1024_S512x1024 : S1x512x1024.ShapeCasts S512x1024
  inb_S1024x3072_S1024x1024_0_0 : ∀ a, (![0, 0] : Fin 2 → Nat) a + S1024x1024.size a ≤ S1024x3072.size a
  inb_S1x3072_S1x1024_0_0 : ∀ a, (![0, 0] : Fin 2 → Nat) a + S1x1024.size a ≤ S1x3072.size a
  broadcasts_S1x1024_S512x1024 : S1x1024.Broadcasts S512x1024
  transposes_S2048x1024_p1_0_S1024x2048 : S2048x1024.Transposes [1, 0] S1024x2048
  reduces_S512x2048_S512 : S512x2048.Reduces [1] S512
  shapeCasts_S512_S512x1 : S512.ShapeCasts S512x1
  broadcasts_S512x1_S512x2048 : S512x1.Broadcasts S512x2048
  reduces_S512x1024_S1024 : S512x1024.Reduces [0] S1024
  shapeCasts_S1024_S1x1024 : S1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16x1024 : S16x1x1024.ShapeCasts S16x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x1024.size a
  hwx0_3 : ∀ i : grid0.Coords, EltTy.bits .f32 = 32 ∨ (Rect.block (s := S16x1x1024) S1x1x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩
abbrev S16x1024 : Shape := ⟨2, ![16, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16x2048x1024, .f32⟩
  | .hbm, ⟨8, _⟩ => ⟨S1x1x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S1x1x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S_, .f32⟩
  | .hbm, ⟨29, _⟩ => ⟨S16x2048, .f32⟩
  | .hbm, ⟨30, _⟩ => ⟨S16x2048, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S16x2048x1024, .f32⟩
  | .hbm, ⟨41, _⟩ => ⟨S_, .f32⟩
  | .hbm, ⟨42, _⟩ => ⟨S16x1024, .f32⟩
  | .hbm, ⟨43, _⟩ => ⟨S_, .f32⟩
  | .hbm, ⟨44, _⟩ => ⟨S16x1024, .f32⟩
  | .hbm, ⟨45, _⟩ => ⟨S16x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  reducesTo_S16x2048x1024_S16x1024_d1 : S16x2048x1024.ReducesTo [1] S16x1024
  bcast_S_S16x1024 : S_.BroadcastsInDim S16x1024 (![] : Fin 0 → Fin S16x1024.rank)
  dot_S16x2048x1024_S1024x1024_S16x2048x1024_2_0_01_1_n_n_wf : DotDims.WF S16x2048x1024 S1024x1024 S16x2048x1024 [2] [0] [0, 1] [1] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.KKit.lean ====
/-
  The frame of the fused attention kernel, first part: what every control case of the body shares.

  @main is four host operations (the three weight matrices joined along the columns and narrowed, the three biases
  joined and laid as one row), the one region over a 16 × 4 grid, and one reshape of the result.  Here: the arrays as
  the region finds them, @main reduced to the region continued by the reshape, the argument arrays untouched by the
  host operations, each window's block at a grid point, the two conditions of the body decided over the grid (the
  first query tile of a batch element, t % 4 = 0, and the last, t % 4 = 3), where the output window is idle, and the
  staging and scratch memrefs the body is called with.
-/
import proofs.«128170_j66357244723910_2_alg».proof.Proof.Gen.Kernel.Launch
import proofs.«128170_j66357244723910_2_alg».proof.Proof.Gen.Kernel.Skeleton
import proofs.«128170_j66357244723910_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the region (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes `main_arg1`, and the region does not stage it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and the region does not stage it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and the region does not stage it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and the region does not stage it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and the region does not stage it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the staged input x by the library's `Dat.arrAt_in`, the six arrays no window stages
    by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's two conditions -/

/-- The body's first branch: the point is the first query tile of its batch element. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second branch: the point is the last query tile of its batch element. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last-tile branch is not taken the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x1024 .f32 := (Memref.whole cc0_stg3_0 : Memref sig .tc .vmem S1x1x1024 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
/-- The three scratch operands: the keys, the values and the running sum of a batch element. -/
abbrev scM0_0 : Memref sig .tc .vmem S2048x1024 .bf16 := Memref.whole cc0_scratch0
abbrev scM0_1 : Memref sig .tc .vmem S2048x1024 .bf16 := Memref.whole cc0_scratch1
abbrev scM0_2 : Memref sig .tc .vmem S1x1024 .f32 := Memref.whole cc0_scratch2
abbrev VS0_0 : View sig .tc .vmem S2048x1024 .bf16 := scM0_0.view
abbrev VS0_1 : View sig .tc .vmem S2048x1024 .bf16 := scM0_1.view
abbrev VS0_2 : View sig .tc .vmem S1x1024 .f32 := scM0_2.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
/-
  The body of the fused attention kernel run at a grid point that is the FIRST query tile of its batch element (and not
  the last): it fills the key and value scratch from the whole x block, zeroes the running sum, then projects its own 512
  query rows, attends, and adds the tile's column sums to the running sum.  The output window is not touched.  Every
  scratch buffer ends stored whole.
-/
import proofs.«128170_j66357244723910_2_alg».proof.Proof.KKit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i)
    (x0 : Vec F S1x2048x1024 .f32) (x1 : Vec F S1024x3072 .bf16) (x2 : Vec F S1x3072 .f32) :
    Σ' (LS0 : List (View.Piece (Elt F) S2048x1024 .bf16)), Σ' (LS1 : List (View.Piece (Elt F) S2048x1024 .bf16)), { LS2 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, fun xi3 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.KRunB.lean ====
/-
  The body run at a grid point that is neither the first nor the last query tile of its batch element: the keys and values
  are read from the scratch the first tile filled, and the tile's column sums are added to the running sum.  The output
  window is not touched.
-/
import proofs.«128170_j66357244723910_2_alg».proof.Proof.KRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : ¬cond0_1 i)
    (x0 : Vec F S1x2048x1024 .f32) (x1 : Vec F S1024x3072 .bf16) (x2 : Vec F S1x3072 .f32) (xs0 xs1 : Vec F S2048x1024 .bf16) (xs2 : Vec F S1x1024 .f32) :
    { LS2 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ owns (c : Thread nD τ) arg6 fullShare xs0 ∗ owns (c : Thread nD τ) arg7 fullShare xs1 ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun xi3 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; · ipureintro; exact harg6.read_unread _
      iexact HS0
    isplitl [HS1]
    · iexists _; isplitr; · ipureintro; exact harg7.read_unread _
      iexact HS1
    iexists _; iexact HS2

end Cert.Kernel.Gen

end
-- ==== Proof.KRunC.lean ====
/-
  The body run at a grid point that is the LAST query tile of its batch element (and not the first): as at a middle tile,
  and then the running sum, scaled by the mean's factor, is stored into the output window's block.
-/
import proofs.«128170_j66357244723910_2_alg».proof.Proof.KRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i)
    (x0 : Vec F S1x2048x1024 .f32) (x1 : Vec F S1024x3072 .bf16) (x2 : Vec F S1x3072 .f32) (xs0 xs1 : Vec F S2048x1024 .bf16) (xs2 : Vec F S1x1024 .f32) :
    Σ' (L3 : List (View.Piece (Elt F) S1x1x1024 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; iexact HS2

end Cert.Kernel.Gen

end
-- ==== Proof.KFrame.lean ====
/-
  The frame of the fused attention kernel, last part.

  What each control case leaves in the three scratch buffers and in the output window's block (each buffer's final stores,
  which tile it); what these hold after every grid point, by recursion on the point: the first
  tile of a batch element refills the key and value scratch and restarts the running sum, a later tile keeps the keys
  and values and adds to the sum, the last tile also writes the block; the region's invariant carrying the three
  scratch buffers from point to point; the body obligation at every point; the run of @main and the frame claim.
-/
import proofs.«128170_j66357244723910_2_alg».proof.Proof.KRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) (y : S2048x1024.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S2048x1024.size (by sl_kernel_rfl) y

def sout0_A_0 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) : Vec F S2048x1024 .bf16 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).1)

theorem scover0_A_1 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) (y : S2048x1024.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S2048x1024.size (by sl_kernel_rfl) y

def sout0_A_1 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) : Vec F S2048x1024 .bf16 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.1)

theorem scover0_A_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) (y : S1x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1024.size (by sl_kernel_rfl) y

def sout0_A_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) : Vec F S1x1024 .f32 :=
  VS0_2.read (Elt F) (VS0_2.writes (Elt F) VS0_2.junk (kernelRun0_A c i arg2 harg2 arg3 harg3 arg4 harg4 arg5 harg5 arg6 harg6 arg7 harg7 arg8 harg8 hc0 hc1 x0 x1 x2).2.2.1)

theorem scover0_B_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : ¬cond0_1 i) (x0 : Vec F S1x2048x1024 .f32) (x1 : Vec F S1024x3072 .bf16) (x2 : Vec F S1x3072 .f32) (xs0 xs1 : Vec F S2048x1024 .bf16) (xs2 : Vec F S1x1024 .f32) (y : S1x1024.Idx) :
    ∃ pc ∈ (kernelRun0_B c i arg2 harg2 arg3 harg3 arg4 harg4 arg5 harg5 arg6 harg6 arg7 harg7 arg8 harg8 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 hc0 hc1 x0 x1 x2 xs0 xs1 xs2).1 S1x1024.size (by sl_kernel_rfl) y

def sout0_B_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : ¬cond0_1 i) (x0 : Vec F S1x2048x1024 .f32) (x1 : Vec F S1024x3072 .bf16) (x2 : Vec F S1x3072 .f32) (xs0 xs1 : Vec F S2048x1024 .bf16) (xs2 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 hc0 hc1 x0 x1 x2 xs0 xs1 xs2).1)

theorem cover0_C_3 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) (y : S1x1x1024.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S1x1x1024.size (by sl_kernel_rfl) y

def out0_C_3 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) : Vec F S1x1x1024 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1 xs2).1)

theorem scover0_C_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) (y : S1x1024.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S1x1024.size (by sl_kernel_rfl) y

def sout0_C_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) : Vec F S1x1024 .f32 :=
  VS0_2.read (Elt F) (VS0_2.writes (Elt F) VS0_2.junk (kernelRun0_C c i arg2 harg2 arg3 harg3 arg4 harg4 arg5 harg5 arg6 harg6 arg7 harg7 arg8 harg8 hc0 hc1 x0 x1 x2 xs0 xs1 xs2).2.1)

/-- The output window's block where no case stores into it: a placeholder nothing consults (the window is idle and not
    written back there). -/
def idleOut : Vec F S1x1x1024 .f32 := VO0_3.read (Elt F) VO0_3.junk

/-! ## What the buffers hold after each point -/

/-- After the body at position `n`: the output window's block, the key scratch, the value scratch, the running sum. -/
def outsAt0 (c : Dev nD) : (n : ℕ) → n < cfg0.N → Vec F S1x1x1024 .f32 × Vec F S2048x1024 .bf16 × Vec F S2048x1024 .bf16 × Vec F S1x1024 .f32
  | 0, hn =>
    have hc0 := (hcond0_0 ⟨0, hn⟩).mpr (Nat.zero_mod _)
    have hc1 : ¬cond0_1 (grid0.coords ⟨0, hn⟩) := fun h => (fun h => by (try dsimp only at h); omega) ((hcond0_1 ⟨0, hn⟩).mp h)
    (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) hc0 hc1 (iblk m c 0 ⟨0, hn⟩) (iblk m c 1 ⟨0, hn⟩) (iblk m c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) hc0 hc1 (iblk m c 0 ⟨0, hn⟩) (iblk m c 1 ⟨0, hn⟩) (iblk m c 2 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) hc0 hc1 (iblk m c 0 ⟨0, hn⟩) (iblk m c 1 ⟨0, hn⟩) (iblk m c 2 ⟨0, hn⟩))
  | n + 1, hn =>
    if h0 : (n + 1) % 4 = 0 then
      have hc0 := (hcond0_0 ⟨n + 1, hn⟩).mpr h0
      have hc1 : ¬cond0_1 (grid0.coords ⟨n + 1, hn⟩) := fun h => (by have := (hcond0_1 ⟨n + 1, hn⟩).mp h; (try dsimp only at this); omega)
      (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩))
    else
      have hc0 : ¬cond0_0 (grid0.coords ⟨n + 1, hn⟩) := fun h => h0 ((hcond0_0 ⟨n + 1, hn⟩).mp h)
      let prev := outsAt0 c n (Nat.lt_of_succ_lt hn)
      if h1 : (n + 1) % 4 = 3 then
        have hc1 := (hcond0_1 ⟨n + 1, hn⟩).mpr h1
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩) prev.2.1 prev.2.2.1 prev.2.2.2,
          prev.2.1, prev.2.2.1,
          sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩) prev.2.1 prev.2.2.1 prev.2.2.2)
      else
        have hc1 : ¬cond0_1 (grid0.coords ⟨n + 1, hn⟩) := fun h => h1 ((hcond0_1 ⟨n + 1, hn⟩).mp h)
        (idleOut, prev.2.1, prev.2.2.1,
          sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩) prev.2.1 prev.2.2.1 prev.2.2.2)

/-- `outsAt0` at a first tile. -/
theorem outsAt0_A (c : Dev nD) (t : Fin cfg0.N) (h0 : t.val % 4 = 0) (hc0 : cond0_0 (grid0.coords t)) (hc1 : ¬cond0_1 (grid0.coords t)) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t),
      sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t)) := by
  obtain ⟨n, hn⟩ := t
  cases n with
  | zero => exact rfl
  | succ n => exact (dif_pos h0).trans rfl

/-- `outsAt0` at a middle tile: the keys and values kept, the running sum added to. -/
theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 m c t.val t.isLt = (idleOut, (outsAt0 m c (t.val - 1) (Nat.lt_of_le_of_lt (Nat.sub_le _ _) t.isLt)).2.1, (outsAt0 m c (t.val - 1) (Nat.lt_of_le_of_lt (Nat.sub_le _ _) t.isLt)).2.2.1,
      sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: as at a middle tile, and the block written. -/
theorem outsAt0_C (c : Dev nD) (t : Fin cfg0.N) (h0 : ¬t.val % 4 = 0) (h1 : t.val % 4 = 3) (hc0 : ¬cond0_0 (grid0.coords t)) (hc1 : cond0_1 (grid0.coords t)) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      (outsAt0 m c (t.val - 1) (Nat.lt_of_le_of_lt (Nat.sub_le _ _) t.isLt)).2.1, (outsAt0 m c (t.val - 1) (Nat.lt_of_le_of_lt (Nat.sub_le _ _) t.isLt)).2.2.1,
      sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scratch at anything; afterwards the three scratch buffers at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the closed forms say which case the point is in; the invariant hands the body the scratch
    buffers (at anything at the very first point, at what the point before left afterwards) and takes them back at
    this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬t.val % 4 = 3 := by omega
    rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [Dat.leavesExact_idle (dats m 0 c) 3 t (idleAt0_3 t (fun h => h1 ((hcond0_1 t).mp h))) (noFlush0_3 t (fun h => h1 ((hcond0_1 t).mp h)))]
    rw [outsAt0_A m c t h0 ((hcond0_0 t).mpr h0) (fun h => h1 ((hcond0_1 t).mp h))]
    unfold sout0_A_0 sout0_A_1 sout0_A_2; (try dsimp only)
    have run := (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.2.2
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 4 = 3
    · rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1 (fun h => h0 ((hcond0_0 t).mp h)) ((hcond0_1 t).mpr h1)]
      unfold out0_C_3 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1 (fun h => h0 ((hcond0_0 t).mp h)) (fun h => h1 ((hcond0_1 t).mp h))]
      unfold sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) _ _ _).2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the region at what the
    library computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Gen

end
-- ==== Proof.KIKit.lean ====
/-
  The frame of the fused attention kernel, first part: what every control case of the body shares.

  @main is four host operations (the three weight matrices joined along the columns and narrowed, the three biases
  joined and laid as one row), the one region over a 16 × 4 grid, and one reshape of the result.  Here: the arrays as
  the region finds them, @main reduced to the region continued by the reshape, the argument arrays untouched by the
  host operations, each window's block at a grid point, the two conditions of the body decided over the grid (the
  first query tile of a batch element, t % 4 = 0, and the last, t % 4 = 3), where the output window is idle, and the
  staging and scratch memrefs the body is called with.
-/
import proofs.«128170_j66357244723910_2_alg».proof.Proof.Gen.KernelIdeal.Launch
import proofs.«128170_j66357244723910_2_alg».proof.Proof.Gen.KernelIdeal.Skeleton
import proofs.«128170_j66357244723910_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers' contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the region (only its own result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host operation after the region writes `main_arg1`, and the region does not stage it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and the region does not stage it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and the region does not stage it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and the region does not stage it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and the region does not stage it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and the region does not stage it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the staged input x by the library's `Dat.arrAt_in`, the six arrays no window stages
    by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's two conditions -/

/-- The body's first branch: the point is the first query tile of its batch element. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The body's second branch: the point is the last query tile of its batch element. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last-tile branch is not taken the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x1024 .f32 := (Memref.whole cc0_stg3_0 : Memref sig .tc .vmem S1x1x1024 .f32).view
abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
/-- The three scratch operands: the keys, the values and the running sum of a batch element. -/
abbrev scM0_0 : Memref sig .tc .vmem S2048x1024 .bf16 := Memref.whole cc0_scratch0
abbrev scM0_1 : Memref sig .tc .vmem S2048x1024 .bf16 := Memref.whole cc0_scratch1
abbrev scM0_2 : Memref sig .tc .vmem S1x1024 .f32 := Memref.whole cc0_scratch2
abbrev VS0_0 : View sig .tc .vmem S2048x1024 .bf16 := scM0_0.view
abbrev VS0_1 : View sig .tc .vmem S2048x1024 .bf16 := scM0_1.view
abbrev VS0_2 : View sig .tc .vmem S1x1024 .f32 := scM0_2.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KIRunA.lean ====
/-
  The body of the fused attention kernel run at a grid point that is the FIRST query tile of its batch element (and not
  the last): it fills the key and value scratch from the whole x block, zeroes the running sum, then projects its own 512
  query rows, attends, and adds the tile's column sums to the running sum.  The output window is not touched.  Every
  scratch buffer ends stored whole.
-/
import proofs.«128170_j66357244723910_2_alg».proof.Proof.KIKit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i)
    (x0 : Vec F S1x2048x1024 .f32) (x1 : Vec F S1024x3072 .bf16) (x2 : Vec F S1x3072 .f32) :
    Σ' (LS0 : List (View.Piece (Elt F) S2048x1024 .bf16)), Σ' (LS1 : List (View.Piece (Elt F) S2048x1024 .bf16)), { LS2 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, ?_, fun xi3 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KIRunB.lean ====
/-
  The body run at a grid point that is neither the first nor the last query tile of its batch element: the keys and values
  are read from the scratch the first tile filled, and the tile's column sums are added to the running sum.  The output
  window is not touched.
-/
import proofs.«128170_j66357244723910_2_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : ¬cond0_1 i)
    (x0 : Vec F S1x2048x1024 .f32) (x1 : Vec F S1024x3072 .bf16) (x2 : Vec F S1x3072 .f32) (xs0 xs1 : Vec F S2048x1024 .bf16) (xs2 : Vec F S1x1024 .f32) :
    { LS2 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ owns (c : Thread nD τ) arg6 fullShare xs0 ∗ owns (c : Thread nD τ) arg7 fullShare xs1 ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, fun xi3 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr; · ipureintro; exact harg6.read_unread _
      iexact HS0
    isplitl [HS1]
    · iexists _; isplitr; · ipureintro; exact harg7.read_unread _
      iexact HS1
    iexists _; iexact HS2

end Cert.KernelIdeal.Gen

end
-- ==== Proof.KIRunC.lean ====
/-
  The body run at a grid point that is the LAST query tile of its batch element (and not the first): as at a middle tile,
  and then the running sum, scaled by the mean's factor, is stored into the output window's block.
-/
import proofs.«128170_j66357244723910_2_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i)
    (x0 : Vec F S1x2048x1024 .f32) (x1 : Vec F S1024x3072 .bf16) (x2 : Vec F S1x3072 .f32) (xs0 xs1 : Vec F S2048x1024 .bf16) (xs2 : Vec F S1x1024 .f32) :
    Σ' (L3 : List (View.Piece (Elt F) S1x1x1024 .f32)), { LS2 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ owns (c : Thread nD τ) arg6 fullShare xs0 ∗ owns (c : Thread nD τ) arg7 fullShare xs1 ∗ (∃ f, arg8.view.loc (c : Thread nD τ) ↦[arg8.view.set]{fullShare} arg8.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    isplitl [HS1]
    · iexists _; isplitr; · ipureintro; exact harg7.read_unread _
      iexact HS1
    iexists _; iexact HS2

end Cert.KernelIdeal.Gen

end
-- ==== Proof.KIFrame.lean ====
/-
  The frame of the fused attention kernel, last part.

  What each control case leaves in the three scratch buffers and in the output window's block (each buffer's final stores,
  which tile it); what these hold after every grid point, by recursion on the point: the first
  tile of a batch element refills the key and value scratch and restarts the running sum, a later tile keeps the keys
  and values and adds to the sum, the last tile also writes the block; the region's invariant carrying the three
  scratch buffers from point to point; the body obligation at every point; the run of @main and the frame claim.
-/
import proofs.«128170_j66357244723910_2_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) (y : S2048x1024.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S2048x1024.size (by sl_kernel_rfl) y

def sout0_A_0 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) : Vec F S2048x1024 .bf16 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).1)

theorem scover0_A_1 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) (y : S2048x1024.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S2048x1024.size (by sl_kernel_rfl) y

def sout0_A_1 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) : Vec F S2048x1024 .bf16 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.1)

theorem scover0_A_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) (y : S1x1024.Idx) :
    ∃ pc ∈ (kernelRun0_A c i arg2 harg2 arg3 harg3 arg4 harg4 arg5 harg5 arg6 harg6 arg7 harg7 arg8 harg8 hc0 hc1 x0 x1 x2).2.2.1, y ∈ pc.1.set :=
  View.cover_of_tiledL (kernelRun0_A c i arg2 harg2 arg3 harg3 arg4 harg4 arg5 harg5 arg6 harg6 arg7 harg7 arg8 harg8 hc0 hc1 x0 x1 x2).2.2.1 S1x1024.size (by sl_kernel_rfl) y

def sout0_A_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) : Vec F S1x1024 .f32 :=
  VS0_2.read (Elt F) (VS0_2.writes (Elt F) VS0_2.junk (kernelRun0_A c i arg2 harg2 arg3 harg3 arg4 harg4 arg5 harg5 arg6 harg6 arg7 harg7 arg8 harg8 hc0 hc1 x0 x1 x2).2.2.1)

theorem scover0_B_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : ¬cond0_1 i) (x0 : Vec F S1x2048x1024 .f32) (x1 : Vec F S1024x3072 .bf16) (x2 : Vec F S1x3072 .f32) (xs0 xs1 : Vec F S2048x1024 .bf16) (xs2 : Vec F S1x1024 .f32) (y : S1x1024.Idx) :
    ∃ pc ∈ (kernelRun0_B c i arg2 harg2 arg3 harg3 arg4 harg4 arg5 harg5 arg6 harg6 arg7 harg7 arg8 harg8 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 hc0 hc1 x0 x1 x2 xs0 xs1 xs2).1 S1x1024.size (by sl_kernel_rfl) y

def sout0_B_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : ¬cond0_1 i) (x0 : Vec F S1x2048x1024 .f32) (x1 : Vec F S1024x3072 .bf16) (x2 : Vec F S1x3072 .f32) (xs0 xs1 : Vec F S2048x1024 .bf16) (xs2 : Vec F S1x1024 .f32) : Vec F S1x1024 .f32 :=
  VS0_2.read (Elt F) (VS0_2.writes (Elt F) VS0_2.junk (kernelRun0_B c i arg2 harg2 arg3 harg3 arg4 harg4 arg5 harg5 arg6 harg6 arg7 harg7 arg8 harg8 hc0 hc1 x0 x1 x2 xs0 xs1 xs2).1)

theorem cover0_C_3 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) (y : S1x1x1024.Idx) :
    ∃ pc ∈ (kernelRun0_C c i arg2 harg2 arg3 harg3 arg4 harg4 arg5 harg5 arg6 harg6 arg7 harg7 arg8 harg8 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 hc0 hc1 x0 x1 x2 xs0 xs1 xs2).1 S1x1x1024.size (by sl_kernel_rfl) y

def out0_C_3 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) : Vec F S1x1x1024 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1 xs2).1)

theorem scover0_C_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) (y : S1x1024.Idx) :
    ∃ pc ∈ (kernelRun0_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 hc0 hc1 x0 x1 x2 xs0 xs1 xs2).2.1 S1x1024.size (by sl_kernel_rfl) y

def sout0_C_2 (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) : Vec F S1x1024 .f32 :=
  VS0_2.read (Elt F) (VS0_2.writes (Elt F) VS0_2.junk (kernelRun0_C c i arg2 harg2 arg3 harg3 arg4 harg4 arg5 harg5 arg6 harg6 arg7 harg7 arg8 harg8 hc0 hc1 x0 x1 x2 xs0 xs1 xs2).2.1)

/-- The output window's block where no case stores into it: a placeholder nothing consults (the window is idle and not
    written back there). -/
def idleOut : Vec F S1x1x1024 .f32 := VO0_3.read (Elt F) VO0_3.junk

/-! ## What the buffers hold after each point -/

/-- After the body at position `n`: the output window's block, the key scratch, the value scratch, the running sum. -/
def outsAt0 (c : Dev nD) : (n : ℕ) → n < cfg0.N → Vec F S1x1x1024 .f32 × Vec F S2048x1024 .bf16 × Vec F S2048x1024 .bf16 × Vec F S1x1024 .f32
  | 0, hn =>
    have hc0 := (hcond0_0 ⟨0, hn⟩).mpr (Nat.zero_mod _)
    have hc1 : ¬cond0_1 (grid0.coords ⟨0, hn⟩) := fun h => (fun h => by (try dsimp only at h); omega) ((hcond0_1 ⟨0, hn⟩).mp h)
    (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) hc0 hc1 (iblk m c 0 ⟨0, hn⟩) (iblk m c 1 ⟨0, hn⟩) (iblk m c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) hc0 hc1 (iblk m c 0 ⟨0, hn⟩) (iblk m c 1 ⟨0, hn⟩) (iblk m c 2 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) hc0 hc1 (iblk m c 0 ⟨0, hn⟩) (iblk m c 1 ⟨0, hn⟩) (iblk m c 2 ⟨0, hn⟩))
  | n + 1, hn =>
    if h0 : (n + 1) % 4 = 0 then
      have hc0 := (hcond0_0 ⟨n + 1, hn⟩).mpr h0
      have hc1 : ¬cond0_1 (grid0.coords ⟨n + 1, hn⟩) := fun h => (by have := (hcond0_1 ⟨n + 1, hn⟩).mp h; (try dsimp only at this); omega)
      (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩))
    else
      have hc0 : ¬cond0_0 (grid0.coords ⟨n + 1, hn⟩) := fun h => h0 ((hcond0_0 ⟨n + 1, hn⟩).mp h)
      let prev := outsAt0 c n (Nat.lt_of_succ_lt hn)
      if h1 : (n + 1) % 4 = 3 then
        have hc1 := (hcond0_1 ⟨n + 1, hn⟩).mpr h1
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩) prev.2.1 prev.2.2.1 prev.2.2.2,
          prev.2.1, prev.2.2.1,
          sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩) prev.2.1 prev.2.2.1 prev.2.2.2)
      else
        have hc1 : ¬cond0_1 (grid0.coords ⟨n + 1, hn⟩) := fun h => h1 ((hcond0_1 ⟨n + 1, hn⟩).mp h)
        (idleOut, prev.2.1, prev.2.2.1,
          sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) hc0 hc1 (iblk m c 0 ⟨n + 1, hn⟩) (iblk m c 1 ⟨n + 1, hn⟩) (iblk m c 2 ⟨n + 1, hn⟩) prev.2.1 prev.2.2.1 prev.2.2.2)

/-- `outsAt0` at a first tile. -/
theorem outsAt0_A (c : Dev nD) (t : Fin cfg0.N) (h0 : t.val % 4 = 0) (hc0 : cond0_0 (grid0.coords t)) (hc1 : ¬cond0_1 (grid0.coords t)) :
    outsAt0 m c t.val t.isLt = (idleOut, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t),
      sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t)) := by
  obtain ⟨n, hn⟩ := t
  cases n with
  | zero => exact rfl
  | succ n => exact (dif_pos h0).trans rfl

/-- `outsAt0` at a middle tile: the keys and values kept, the running sum added to. -/
theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 m c t.val t.isLt = (idleOut, (outsAt0 m c (t.val - 1) (Nat.lt_of_le_of_lt (Nat.sub_le _ _) t.isLt)).2.1, (outsAt0 m c (t.val - 1) (Nat.lt_of_le_of_lt (Nat.sub_le _ _) t.isLt)).2.2.1,
      sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: as at a middle tile, and the block written. -/
theorem outsAt0_C (c : Dev nD) (t : Fin cfg0.N) (h0 : ¬t.val % 4 = 0) (h1 : t.val % 4 = 3) (hc0 : ¬cond0_0 (grid0.coords t)) (hc1 : cond0_1 (grid0.coords t)) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      (outsAt0 m c (t.val - 1) (Nat.lt_of_le_of_lt (Nat.sub_le _ _) t.isLt)).2.1, (outsAt0 m c (t.val - 1) (Nat.lt_of_le_of_lt (Nat.sub_le _ _) t.isLt)).2.2.1,
      sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) hc0 hc1 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point every scratch at anything; afterwards the three scratch buffers at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the closed forms say which case the point is in; the invariant hands the body the scratch
    buffers (at anything at the very first point, at what the point before left afterwards) and takes them back at
    this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬t.val % 4 = 3 := by omega
    rw [show (dats m 0 c).leavesExact 0 t = owns (c : Thread nD τ) (ms0_0 t) fullShare ((dats m 0 c).after 0 t) from by
        unfold Dat.leavesExact; rw [liveAt0_0 t], after0_0]
    rw [show (dats m 0 c).leavesExact 1 t = owns (c : Thread nD τ) (ms0_1 t) fullShare ((dats m 0 c).after 1 t) from by
        unfold Dat.leavesExact; rw [liveAt0_1 t], after0_1]
    rw [show (dats m 0 c).leavesExact 2 t = owns (c : Thread nD τ) (ms0_2 t) fullShare ((dats m 0 c).after 2 t) from by
        unfold Dat.leavesExact; rw [liveAt0_2 t], after0_2]
    rw [Dat.leavesExact_idle (dats m 0 c) 3 t (idleAt0_3 t (fun h => h1 ((hcond0_1 t).mp h))) (noFlush0_3 t (fun h => h1 ((hcond0_1 t).mp h)))]
    rw [outsAt0_A m c t h0 ((hcond0_0 t).mpr h0) (fun h => h1 ((hcond0_1 t).mp h))]
    unfold sout0_A_0 sout0_A_1 sout0_A_2; (try dsimp only)
    have run := (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.2.2
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply (run _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro h; rw [h] at h0; exact h0 (Nat.zero_mod _)
    by_cases h1 : t.val % 4 = 3
    · rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1 (fun h => h0 ((hcond0_0 t).mp h)) ((hcond0_1 t).mpr h1)]
      unfold out0_C_3 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) _ _ _).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [show (dats m 0 c).leavesExact 0 t = owns (c : Thread nD τ) (ms0_0 t) fullShare ((dats m 0 c).after 0 t) from by
          unfold Dat.leavesExact; rw [liveAt0_0 t], after0_0]
      rw [show (dats m 0 c).leavesExact 1 t = owns (c : Thread nD τ) (ms0_1 t) fullShare ((dats m 0 c).after 1 t) from by
          unfold Dat.leavesExact; rw [liveAt0_1 t], after0_1]
      rw [show (dats m 0 c).leavesExact 2 t = owns (c : Thread nD τ) (ms0_2 t) fullShare ((dats m 0 c).after 2 t) from by
          unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1 (fun h => h0 ((hcond0_0 t).mp h)) (fun h => h1 ((hcond0_1 t).mp h))]
      unfold sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) _ _ _).2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, ⟨%es2, HS2⟩⟩
      isplitl [HS0 HS1 HS2 Hg]
      · isplitl [HS0 HS1 HS2]
        · isplitl [HS0]; · iexact HS0
          isplitl [HS1]; · iexact HS1
          unfold owns; iexists _; isplitr
          swap; · iexact HS2
          ipureintro; exact View.read_writes_of_cover _ _ _ _ _ (scover0_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the region at what the
    library computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end, faults nowhere, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Gen

end
-- ==== Proof.KIPieces.lean ====
/-
  What the fused attention kernel's body leaves in its three scratch buffers and in the output block, as arithmetic.

  The body runs in three ways: at the first query tile of a batch element, at a middle tile, at the last tile.  In each
  every buffer ends with a list of stores; here each such list is read back and named as
  a function of what the body loaded.  Every store and every load in question goes through a whole buffer, or
  through a fixed window of the joined weight matrix, the joined bias row, or the x block:

  * the joined weights [1024, 3072] are three [1024, 1024] matrices side by side (query, key, value columns), the
    joined bias [1, 3072] three rows of 1024 likewise;
  * the tile of the x block that grid point i projects as queries is the 512 rows starting at 512 times the tile's number;
  * the first tile stores into the key scratch the projection of the WHOLE x block by the key columns, into the value
    scratch the projection by the value columns, and zero into the running sum, which it then reads back and adds its
    own tile's column sums to;
  * a later tile keeps keys and values and adds its column sums to the running sum it found;
  * the last tile does the same and also stores the running sum, rescaled, as the output block.

  A load through the whole-buffer rectangle reads the contents; the last store through it leaves its payload whatever
  came before; reading back what one whole store left reads that store's payload.
-/
import proofs.«128170_j66357244723910_2_alg».proof.Proof.KIFrame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows the body loads through -/

/-- The query columns of the joined weights. -/
abbrev rWq : Rect S1024x3072 := Rect.unit (s := S1024x3072) ![0, 0] S1024x1024.size inb_S1024x3072_S1024x1024_0_0
/-- The key columns of the joined weights. -/
abbrev rWk : Rect S1024x3072 := Rect.unit (s := S1024x3072) ![0, 1024] S1024x1024.size inb_S1024x3072_S1024x1024_0_1024
/-- The value columns of the joined weights. -/
abbrev rWv : Rect S1024x3072 := Rect.unit (s := S1024x3072) ![0, 2048] S1024x1024.size inb_S1024x3072_S1024x1024_0_2048
/-- The query part of the joined bias row. -/
abbrev rbq : Rect S1x3072 := Rect.unit (s := S1x3072) ![0, 0] S1x1024.size inb_S1x3072_S1x1024_0_0
/-- The key part of the joined bias row. -/
abbrev rbk : Rect S1x3072 := Rect.unit (s := S1x3072) ![0, 1024] S1x1024.size inb_S1x3072_S1x1024_0_1024
/-- The value part of the joined bias row. -/
abbrev rbv : Rect S1x3072 := Rect.unit (s := S1x3072) ![0, 2048] S1x1024.size inb_S1x3072_S1x1024_0_2048
/-- The 512 rows of the x block that grid point i projects as queries. -/
abbrev rTile (i : grid0.Coords) : Rect S1x2048x1024 := Rect.unit (s := S1x2048x1024) (k0_off1 i) S1x512x1024.size (k0_off1_inb i)

/-! ## The three quantities -/

/-- The key scratch: the whole x block projected by the key columns and the key bias. -/
def keysOf (x0 : Vec F S1x2048x1024 .f32) (x1 : Vec F S1024x3072 .bf16) (x2 : Vec F S1x3072 .f32) : Vec F S2048x1024 .bf16 :=
  k0_pay4 x0 (View.ld x1 rWk) (View.ld x2 rbk)

/-- The value scratch: the whole x block projected by the value columns and the value bias. -/
def valsOf (x0 : Vec F S1x2048x1024 .f32) (x1 : Vec F S1024x3072 .bf16) (x2 : Vec F S1x3072 .f32) : Vec F S2048x1024 .bf16 :=
  k0_pay5 x0 (View.ld x1 rWv) (View.ld x2 rbv)

/-- One tile's contribution to the running sum: its 512 rows projected as queries, attended against the keys K and
    the values V, and summed over the rows. -/
def partOf (i : grid0.Coords) (x0 : Vec F S1x2048x1024 .f32) (x1 : Vec F S1024x3072 .bf16) (x2 : Vec F S1x3072 .f32) (K V : Vec F S2048x1024 .bf16) : Vec F S1x1024 .f32 :=
  k0_pay7 (View.ld x0 (rTile i)) (View.ld x1 rWq) (View.ld x2 rbq) K V

/-- The zero offsets of a rank-2 whole-buffer rectangle. -/
theorem hz2 : (![0, 0] : Fin 2 → Nat) = fun _ => 0 := funext fun a => by fin_cases a <;> rfl
/-- The zero offsets of a rank-3 whole-buffer rectangle. -/
theorem hz3 : (![0, 0, 0] : Fin 3 → Nat) = fun _ => 0 := funext fun a => by fin_cases a <;> rfl

/-! ## The first tile of a batch element -/

/-- What the first tile leaves in the key scratch: the key projection of the whole x block. -/
theorem sout0_A_0_eq (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) :
    sout0_A_0 c i arg2 harg2 arg3 harg3 arg4 harg4 arg5 harg5 arg6 harg6 arg7 harg7 arg8 harg8 hc0 hc1 x0 x1 x2 = keysOf x0 x1 x2 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_unit_zero (S := S2048x1024) hz2]
  unfold keysOf
  simp only [View.readAt_eq_ld, harg2.read_unread, harg3.read_unread, harg4.read_unread,
    View.ld_unit_zero (S := S1x2048x1024) hz3]

/-- What the first tile leaves in the value scratch: the value projection of the whole x block. -/
theorem sout0_A_1_eq (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) :
    sout0_A_1 c i arg2 harg2 arg3 harg3 arg4 harg4 arg5 harg5 arg6 harg6 arg7 harg7 arg8 harg8 hc0 hc1 x0 x1 x2 = valsOf x0 x1 x2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_unit_zero (S := S2048x1024) hz2]
  unfold valsOf
  simp only [View.readAt_eq_ld, harg2.read_unread, harg3.read_unread, harg4.read_unread,
    View.ld_unit_zero (S := S1x2048x1024) hz3]

/-- What the first tile leaves in the running sum: zero, read back, plus the tile's contribution computed from the keys
    and values it has just stored (read back from their scratch buffers). -/
theorem sout0_A_2_eq (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : cond0_0 i) (hc1 : ¬cond0_1 i) (x0 : Vec F S1x2048x1024 .f32) (x1 : Vec F S1024x3072 .bf16) (x2 : Vec F S1x3072 .f32) :
    sout0_A_2 c i arg2 harg2 arg3 harg3 arg4 harg4 arg5 harg5 arg6 harg6 arg7 harg7 arg8 harg8 hc0 hc1 x0 x1 x2
      = k0_pay1 (partOf i x0 x1 x2 (keysOf x0 x1 x2) (valsOf x0 x1 x2)) k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1024) hz2, View.readCov_unit_zero (S := S2048x1024) arg6.view hz2,
    View.readCov_unit_zero (S := S2048x1024) arg7.view hz2, View.readCov_unit_zero (S := S1x1024) arg8.view hz2]
  unfold partOf keysOf valsOf
  simp only [View.readAt_eq_ld, harg2.read_unread, harg3.read_unread, harg4.read_unread,
    View.ld_unit_zero (S := S1x2048x1024) hz3]
  rfl

/-! ## A middle tile -/

/-- What a middle tile leaves in the running sum: the sum it found plus the tile's contribution from the keys and
    values it found. -/
theorem sout0_B_2_eq (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : ¬cond0_1 i) (x0 : Vec F S1x2048x1024 .f32) (x1 : Vec F S1024x3072 .bf16) (x2 : Vec F S1x3072 .f32) (xs0 xs1 : Vec F S2048x1024 .bf16) (xs2 : Vec F S1x1024 .f32) :
    sout0_B_2 c i arg2 harg2 arg3 harg3 arg4 harg4 arg5 harg5 arg6 harg6 arg7 harg7 arg8 harg8 hc0 hc1 x0 x1 x2 xs0 xs1 xs2 = k0_pay1 (partOf i x0 x1 x2 xs0 xs1) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1x1024) hz2]
  unfold partOf
  simp only [View.readAt_eq_ld, harg2.read_unread, harg3.read_unread, harg4.read_unread, harg6.read_unread,
    harg7.read_unread, harg8.read_unread, View.ld_unit_zero (S := S2048x1024) hz2, View.ld_unit_zero (S := S1x1024) hz2]
  rfl

/-! ## The last tile -/

/-- What the last tile leaves in the running sum: as a middle tile. -/
theorem sout0_C_2_eq (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) :
    sout0_C_2 c i arg2 harg2 arg3 harg3 arg4 harg4 arg5 harg5 arg6 harg6 arg7 harg7 arg8 harg8 hc0 hc1 x0 x1 x2 xs0 xs1 xs2 = k0_pay1 (partOf i x0 x1 x2 xs0 xs1) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x1024) hz2]
  unfold partOf
  simp only [View.readAt_eq_ld, harg2.read_unread, harg3.read_unread, harg4.read_unread, harg6.read_unread,
    harg7.read_unread, harg8.read_unread, View.ld_unit_zero (S := S2048x1024) hz2, View.ld_unit_zero (S := S1x1024) hz2]
  rfl

/-- What the last tile stores as the output block: the completed running sum, read back and rescaled. -/
theorem out0_C_3_eq (c : Dev nD) (i : grid0.Coords) (arg2 : Memref sig .tc .vmem S1x2048x1024 .f32) (harg2 : arg2.IsWhole) (arg3 : Memref sig .tc .vmem S1024x3072 .bf16) (harg3 : arg3.IsWhole) (arg4 : Memref sig .tc .vmem S1x3072 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .bf16) (harg7 : arg7.IsWhole) (arg8 : Memref sig .tc .vmem S1x1024 .f32) (harg8 : arg8.IsWhole) (hc0 : ¬cond0_0 i) (hc1 : cond0_1 i) (x0 : Vec F S1x2048x1024 .f32) (x1 : Vec F S1024x3072 .bf16) (x2 : Vec F S1x3072 .f32) (xs0 xs1 : Vec F S2048x1024 .bf16) (xs2 : Vec F S1x1024 .f32) :
    out0_C_3 c i arg2 harg2 arg3 harg3 arg4 harg4 arg5 harg5 arg6 harg6 arg7 harg7 arg8 harg8 hc0 hc1 x0 x1 x2 xs0 xs1 xs2 = k0_pay2 (k0_pay1 (partOf i x0 x1 x2 xs0 xs1) xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x1x1024) hz3, View.readCov_unit_zero (S := S1x1024) arg8.view hz2]
  unfold partOf
  simp only [View.readAt_eq_ld, harg2.read_unread, harg3.read_unread, harg4.read_unread, harg6.read_unread,
    harg7.read_unread, harg8.read_unread, View.ld_unit_zero (S := S2048x1024) hz2, View.ld_unit_zero (S := S1x1024) hz2]
  rfl

end Cert.KernelIdeal.Gen

end
-- ==== Proof.LibConcatCols.lean ====
/-
  GENERAL lemmas on matrices joined along their columns, read at an index, and on a sum over such a joined axis. Nothing
  here mentions a program; the extents are arbitrary.

  * concat2_cols_apply: an [R, a] matrix followed along the columns by an [R, b] matrix, read at (p, k): the first at
    (p, k) when k < a, the second at (p, k - a) otherwise.
  * concat3_cols_apply: the same for three matrices [R, a], [R, b], [R, c].
  * concat3_cols_fst / _snd / _thd: the same three matrices read at a column inside the first, the second and the third piece,
    the column given with its offset into the piece (no case split).
  * sum_257: a sum over 257 indices as the first 128, the next 128 and the last.
  * sum_split3: a sum over a + b + 1 indices is the sum over the first a, plus the sum over the next b, plus the last term, in
    any additive commutative monoid (so no finiteness is needed on extended reals).
-/
import Idealize.ShloMosaic.Lib.Pipeline.Value
import Idealize.ShloMosaic.Lib.ValueIdx
import Mathlib.Algebra.BigOperators.Fin

noncomputable section

namespace Cert.LibConcatCols

open Idealize.ShloMosaic Idealize.ShloMosaic.ValueIdx
open scoped BigOperators

variable {α : Type}

/-- Two matrices joined along the columns, read at (p, k). -/
theorem concat2_cols_apply {R a b n : ℕ} (x : (⟨2, ![R, a]⟩ : Shape).Idx → α) (y : (⟨2, ![R, b]⟩ : Shape).Idx → α)
    (h : Shape.Concatenates [⟨2, ![R, a]⟩, ⟨2, ![R, b]⟩] ⟨2, ![R, n]⟩ 1) (hn : n = a + b) (p : Fin R) (k : Fin n) :
    concatenate ⟨2, ![R, n]⟩ 1 [⟨⟨2, ![R, a]⟩, x⟩, ⟨⟨2, ![R, b]⟩, y⟩] h (ix2 p k)
      = if hk : k.val < a then x (ix2 p ⟨k.val, hk⟩) else y (ix2 p ⟨k.val - a, by have := k.isLt; omega⟩) := by
  split
  · next hk =>
    exact concatenate_pair_apply_left 1 x y h (ix2 p k) rfl (ix2 p ⟨k.val, hk⟩) (fun b => by
      match b with
      | ⟨0, _⟩ => rfl
      | ⟨1, _⟩ => rfl)
  · next hk =>
    exact concatenate_pair_apply_right 1 x y h (ix2 p k) rfl rfl (ix2 p ⟨k.val - a, by have := k.isLt; omega⟩) (fun b hb => by
      match b with
      | ⟨0, _⟩ => rfl
      | ⟨1, _⟩ => exact absurd rfl hb) (by show k.val - a + a = k.val; omega)

/-- Three matrices joined along the columns, read at (p, k). -/
theorem concat3_cols_apply {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (hn : n = a + b + c) (p : Fin R) (k : Fin n) :
    concatenate ⟨2, ![R, n]⟩ 1 [⟨⟨2, ![R, a]⟩, x⟩, ⟨⟨2, ![R, b]⟩, y⟩, ⟨⟨2, ![R, c]⟩, z⟩] h (ix2 p k)
      = if h1 : k.val < a then x (ix2 p ⟨k.val, h1⟩)
        else if h2 : k.val < a + b then y (ix2 p ⟨k.val - a, by omega⟩)
        else z (ix2 p ⟨k.val - a - b, by have := k.isLt; omega⟩) := by
  split
  · next h1 =>
    exact concatenate_apply_piece (t := ⟨2, ![R, n]⟩) 1 [⟨⟨2, ![R, a]⟩, x⟩, ⟨⟨2, ![R, b]⟩, y⟩, ⟨⟨2, ![R, c]⟩, z⟩] h (ix2 p k) 0 (by simp) ⟨2, ![R, a]⟩ x rfl rfl 0 rfl (ix2 p ⟨k.val, h1⟩) (fun q hq => by
      match q with
      | ⟨0, _⟩ => rfl
      | ⟨1, _⟩ => exact absurd rfl hq) (by show 0 + k.val = k.val; omega)
  · next h1 =>
    split
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 1 (by simp) ⟨2, ![R, b]⟩ y rfl rfl a rfl (ix2 p ⟨k.val - a, by omega⟩) (fun q hq => by
        match q with
        | ⟨0, _⟩ => rfl
        | ⟨1, _⟩ => exact absurd rfl hq) (by show a + (k.val - a) = k.val; omega)
    · next h2 =>
      exact concatenate_apply_piece (t := ⟨2, ![R, n]⟩) 1 [⟨⟨2, ![R, a]⟩, x⟩, ⟨⟨2, ![R, b]⟩, y⟩, ⟨⟨2, ![R, c]⟩, z⟩] h (ix2 p k) 2 (by simp) ⟨2, ![R, c]⟩ z rfl rfl (a + b) rfl
        (ix2 p ⟨k.val - a - b, by have := k.isLt; omega⟩) (fun q hq => by
        match q with
        | ⟨0, _⟩ => rfl
        | ⟨1, _⟩ => exact absurd rfl hq) (by show a + b + (k.val - a - b) = k.val; omega)

/-- Three matrices joined along the columns, read at a column k inside the first: k = i. -/
theorem concat3_cols_fst {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin a)
    (hk : k.val = i.val) :
    concatenate ⟨2, ![R, n]⟩ 1 [⟨⟨2, ![R, a]⟩, x⟩, ⟨⟨2, ![R, b]⟩, y⟩, ⟨⟨2, ![R, c]⟩, z⟩] h (ix2 p k) = x (ix2 p i) :=
  concatenate_apply_piece (t := ⟨2, ![R, n]⟩) 1 [⟨⟨2, ![R, a]⟩, x⟩, ⟨⟨2, ![R, b]⟩, y⟩, ⟨⟨2, ![R, c]⟩, z⟩] h _ 0 (by simp) ⟨2, ![R, a]⟩ x rfl rfl 0 rfl
    (ix2 p i) (fun q hq => by
      match q with
      | ⟨0, _⟩ => rfl
      | ⟨1, _⟩ => exact absurd rfl hq) (by show 0 + i.val = k.val; omega)

/-- Three matrices joined along the columns, read at a column k inside the second: k = a + i. -/
theorem concat3_cols_snd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin b)
    (hk : k.val = a + i.val) :
    concatenate ⟨2, ![R, n]⟩ 1 [⟨⟨2, ![R, a]⟩, x⟩, ⟨⟨2, ![R, b]⟩, y⟩, ⟨⟨2, ![R, c]⟩, z⟩] h (ix2 p k) = y (ix2 p i) :=
  concatenate_apply_piece (t := ⟨2, ![R, n]⟩) 1 [⟨⟨2, ![R, a]⟩, x⟩, ⟨⟨2, ![R, b]⟩, y⟩, ⟨⟨2, ![R, c]⟩, z⟩] h _ 1 (by simp) ⟨2, ![R, b]⟩ y rfl rfl a rfl
    (ix2 p i) (fun q hq => by
      match q with
      | ⟨0, _⟩ => rfl
      | ⟨1, _⟩ => exact absurd rfl hq) (by show a + i.val = k.val; omega)

/-- Three matrices joined along the columns, read at a column k inside the third: k = a + b + i. -/
theorem concat3_cols_thd {R a b c n : ℕ} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1) (p : Fin R) (k : Fin n) (i : Fin c)
    (hk : k.val = a + b + i.val) :
    concatenate ⟨2, ![R, n]⟩ 1 [⟨⟨2, ![R, a]⟩, x⟩, ⟨⟨2, ![R, b]⟩, y⟩, ⟨⟨2, ![R, c]⟩, z⟩] h (ix2 p k) = z (ix2 p i) :=
  concatenate_apply_piece (t := ⟨2, ![R, n]⟩) 1 [⟨⟨2, ![R, a]⟩, x⟩, ⟨⟨2, ![R, b]⟩, y⟩, ⟨⟨2, ![R, c]⟩, z⟩] h _ 2 (by simp) ⟨2, ![R, c]⟩ z rfl rfl (a + b) rfl
    (ix2 p i) (fun q hq => by
      match q with
      | ⟨0, _⟩ => rfl
      | ⟨1, _⟩ => exact absurd rfl hq) (by show a + b + i.val = k.val; omega)

/-- A sum over 257 = 128 + 128 + 1 indices: the first 128, the next 128, the last one. -/
theorem sum_257 {M : Type*} [AddCommMonoid M] (f : Fin 257 → M) :
    ∑ k, f k = (∑ k : Fin 128, f ⟨k.val, by omega⟩) + (∑ k : Fin 128, f ⟨128 + k.val, by omega⟩) + f ⟨256, by omega⟩ := by
  show ∑ k : Fin (128 + 128 + 1), f k = _
  rw [Fin.sum_univ_castSucc, Fin.sum_univ_add]
  rfl

/-- A sum over a + b + 1 indices: the first a, the next b, the last one. -/
theorem sum_split3 {M : Type*} [AddCommMonoid M] (a b : ℕ) (f : Fin (a + b + 1) → M) :
    ∑ k, f k = (∑ k : Fin a, f ⟨k.val, by omega⟩) + (∑ k : Fin b, f ⟨a + k.val, by omega⟩) + f ⟨a + b, by omega⟩ := by
  rw [Fin.sum_univ_castSucc, Fin.sum_univ_add]
  rfl

end Cert.LibConcatCols

end
-- ==== Proof.LoadsAt.lean ====
/-
  The kernel's loads and the region's arrays, read at an index on the extended reals.

  A load through a unit-stride rectangle reads the array at the rectangle's offset plus the coordinate inside it. The
  region's grid is 16 × 4: point t is batch element t / 4, query tile t % 4. The first window's block at point t is the
  whole [2048, 1024] slab of batch element t / 4 of x; the second and third windows' blocks are their whole arrays: the
  three weight matrices side by side, [1024, 3072], and the three bias vectors end to end as one row, [1, 3072]. The
  host operations before the region build those two arrays from the six arguments, so column d, 1024 + d, 2048 + d of
  the joined weights is column d of the query, key, value weights, and likewise for the biases.
-/
import proofs.«128170_j66357244723910_2_alg».proof.Proof.KIKit
import proofs.«128170_j66357244723910_2_alg».proof.Proof.LibConcatCols
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.LoadsAt

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## Loads through rectangles -/

/-- The query weights: columns 0 to 1023 of the joined weights. -/
theorem ld_Wq (x1 : S1024x3072.Idx → Elt Ideal .bf16) (hin : ∀ a, (![0, 0] : Fin 2 → Nat) a + S1024x1024.size a ≤ S1024x3072.size a)
    (h d : Fin 1024) :
    View.ld (Val := Elt Ideal) (e' := .bf16) x1 (Rect.unit (s := S1024x3072) ![0, 0] S1024x1024.size hin) (ix2 h d)
      = x1 (ix2 h (⟨d.val, by omega⟩ : Fin 3072)) :=
  congrArg x1 (funext fun a => Fin.ext (by
    match a with
    | ⟨0, _⟩ => show 0 + 1 * h.val = h.val; omega
    | ⟨1, _⟩ => show 0 + 1 * d.val = d.val; omega))

/-- The key weights: columns 1024 to 2047. -/
theorem ld_Wk (x1 : S1024x3072.Idx → Elt Ideal .bf16) (hin : ∀ a, (![0, 1024] : Fin 2 → Nat) a + S1024x1024.size a ≤ S1024x3072.size a)
    (h d : Fin 1024) :
    View.ld (Val := Elt Ideal) (e' := .bf16) x1 (Rect.unit (s := S1024x3072) ![0, 1024] S1024x1024.size hin) (ix2 h d)
      = x1 (ix2 h (⟨1024 + d.val, by omega⟩ : Fin 3072)) :=
  congrArg x1 (funext fun a => Fin.ext (by
    match a with
    | ⟨0, _⟩ => show 0 + 1 * h.val = h.val; omega
    | ⟨1, _⟩ => show 1024 + 1 * d.val = 1024 + d.val; omega))

/-- The value weights: columns 2048 to 3071. -/
theorem ld_Wv (x1 : S1024x3072.Idx → Elt Ideal .bf16) (hin : ∀ a, (![0, 2048] : Fin 2 → Nat) a + S1024x1024.size a ≤ S1024x3072.size a)
    (h d : Fin 1024) :
    View.ld (Val := Elt Ideal) (e' := .bf16) x1 (Rect.unit (s := S1024x3072) ![0, 2048] S1024x1024.size hin) (ix2 h d)
      = x1 (ix2 h (⟨2048 + d.val, by omega⟩ : Fin 3072)) :=
  congrArg x1 (funext fun a => Fin.ext (by
    match a with
    | ⟨0, _⟩ => show 0 + 1 * h.val = h.val; omega
    | ⟨1, _⟩ => show 2048 + 1 * d.val = 2048 + d.val; omega))

/-- The query bias: entries 0 to 1023 of the joined bias row. -/
theorem ld_bq (x2 : S1x3072.Idx → Elt Ideal .f32) (hin : ∀ a, (![0, 0] : Fin 2 → Nat) a + S1x1024.size a ≤ S1x3072.size a)
    (d : Fin 1024) :
    View.ld (Val := Elt Ideal) (e' := .f32) x2 (Rect.unit (s := S1x3072) ![0, 0] S1x1024.size hin) (ix2 (0 : Fin 1) d)
      = x2 (ix2 (0 : Fin 1) (⟨d.val, by omega⟩ : Fin 3072)) :=
  congrArg x2 (funext fun a => Fin.ext (by
    match a with
    | ⟨0, _⟩ => rfl
    | ⟨1, _⟩ => show 0 + 1 * d.val = d.val; omega))

/-- The key bias: entries 1024 to 2047. -/
theorem ld_bk (x2 : S1x3072.Idx → Elt Ideal .f32) (hin : ∀ a, (![0, 1024] : Fin 2 → Nat) a + S1x1024.size a ≤ S1x3072.size a)
    (d : Fin 1024) :
    View.ld (Val := Elt Ideal) (e' := .f32) x2 (Rect.unit (s := S1x3072) ![0, 1024] S1x1024.size hin) (ix2 (0 : Fin 1) d)
      = x2 (ix2 (0 : Fin 1) (⟨1024 + d.val, by omega⟩ : Fin 3072)) :=
  congrArg x2 (funext fun a => Fin.ext (by
    match a with
    | ⟨0, _⟩ => rfl
    | ⟨1, _⟩ => show 1024 + 1 * d.val = 1024 + d.val; omega))

/-- The value bias: entries 2048 to 3071. -/
theorem ld_bv (x2 : S1x3072.Idx → Elt Ideal .f32) (hin : ∀ a, (![0, 2048] : Fin 2 → Nat) a + S1x1024.size a ≤ S1x3072.size a)
    (d : Fin 1024) :
    View.ld (Val := Elt Ideal) (e' := .f32) x2 (Rect.unit (s := S1x3072) ![0, 2048] S1x1024.size hin) (ix2 (0 : Fin 1) d)
      = x2 (ix2 (0 : Fin 1) (⟨2048 + d.val, by omega⟩ : Fin 3072)) :=
  congrArg x2 (funext fun a => Fin.ext (by
    match a with
    | ⟨0, _⟩ => rfl
    | ⟨1, _⟩ => show 2048 + 1 * d.val = 2048 + d.val; omega))

/-- The query tile of grid coordinates i: rows 512 · i₁ to 512 · i₁ + 511 of the batch element's slab. -/
theorem ld_tile (x0 : S1x2048x1024.Idx → Elt Ideal .f32) (i : grid0.Coords)
    (hin : ∀ a, (k0_off1 i) a + S1x512x1024.size a ≤ S1x2048x1024.size a) (r : Fin 512) (h : Fin 1024) :
    View.ld (Val := Elt Ideal) (e' := .f32) x0 (Rect.unit (s := S1x2048x1024) (k0_off1 i) S1x512x1024.size hin) (ix3 (0 : Fin 1) r h)
      = x0 (ix3 (0 : Fin 1) (⟨512 * (i 1).val + r.val, by have h4 : (i 1).val < 4 := (i 1).isLt; omega⟩ : Fin 2048) h) := by
  have hoff := k0_off1_eq i
  refine congrArg x0 (funext fun a => Fin.ext ?_)
  match a with
  | ⟨0, _⟩ => show (k0_off1 i) 0 + 1 * 0 = 0; rw [hoff]; rfl
  | ⟨1, _⟩ => show (k0_off1 i) 1 + 1 * r.val = 512 * (i 1).val + r.val; rw [hoff]; show 512 * (i 1).val + 1 * r.val = _; omega
  | ⟨2, _⟩ => show (k0_off1 i) 2 + 1 * h.val = h.val; rw [hoff]; show 0 + 1 * h.val = _; omega

/-! ## The grid's coordinates -/

/-- A point of the grid is below 64. -/
theorem point_lt (t : Fin cfg0.N) : t.val < 64 := by
  have h := t.isLt
  have hN : cfg0.N = 64 := N_0
  omega

/-- The first coordinate of point t, the batch element, is t / 4. -/
theorem coords_fst : ∀ t : Fin cfg0.N, (grid0.coords t 0).val = t.val / 4 :=
  (by decide +kernel : ∀ t : Fin grid0.N, (grid0.coords t 0).val = t.val / 4)

/-- The second coordinate of point t, the query tile, is t % 4. -/
theorem coords_snd : ∀ t : Fin cfg0.N, (grid0.coords t 1).val = t.val % 4 :=
  (by decide +kernel : ∀ t : Fin grid0.N, (grid0.coords t 1).val = t.val % 4)

/-! ## The windows' blocks -/

/-- The first window's block index at point t: batch element t / 4, the whole slab. -/
theorem index0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)

/-- The second window's block index is zero everywhere: its block is the whole array. -/
theorem index1 : ∀ t : Fin cfg0.N, win0_1.index t 0 = 0 ∧ win0_1.index t 1 = 0 :=
  (by decide +kernel : ∀ t : Fin grid0.N, win0_1.index t 0 = 0 ∧ win0_1.index t 1 = 0)

/-- The third window's block index is zero everywhere: its block is the whole array. -/
theorem index2 : ∀ t : Fin cfg0.N, win0_2.index t 0 = 0 ∧ win0_2.index t 1 = 0 :=
  (by decide +kernel : ∀ t : Fin grid0.N, win0_2.index t 0 = 0 ∧ win0_2.index t 1 = 0)

/-- The first window's block at point t is the slab of batch element t / 4 of x. -/
theorem iblk0_at (t : Fin cfg0.N) (s : Fin 2048) (h : Fin 1024) :
    (iblk m c 0 t : S1x2048x1024.Idx → EReal) (ix3 (0 : Fin 1) s h)
      = m ((c : Thread nD τ).loc main_arg0) (ix3 (⟨t.val / 4, by have := point_lt t; omega⟩ : Fin 16) s h) := by
  have hi := index0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 4; rw [hi.1]; omega
  | ⟨1, _⟩ => show win0_0.index t 1 * 2048 + 1 * s.val = s.val; rw [hi.2.1]; omega
  | ⟨2, _⟩ => show win0_0.index t 2 * 1024 + 1 * h.val = h.val; rw [hi.2.2]; omega

/-- The second window's block is the whole array of joined weights. -/
theorem iblk1_eq (t : Fin cfg0.N) : (iblk m c 1 t : S1024x3072.Idx → EReal) = V m c main_v1 := by
  have hi := index1 t
  funext j
  unfold iblk
  rw [View.read_apply]
  show V m c main_v1 _ = _
  refine congrArg (V m c main_v1) (funext fun a => Fin.ext ?_)
  match a with
  | ⟨0, _⟩ => show win0_1.index t 0 * 1024 + 1 * (j 0).val = (j 0).val; rw [hi.1]; omega
  | ⟨1, _⟩ => show win0_1.index t 1 * 3072 + 1 * (j 1).val = (j 1).val; rw [hi.2]; omega

/-- The third window's block is the whole joined bias row. -/
theorem iblk2_eq (t : Fin cfg0.N) : (iblk m c 2 t : S1x3072.Idx → EReal) = V m c main_v3 := by
  have hi := index2 t
  funext j
  unfold iblk
  rw [View.read_apply]
  show V m c main_v3 _ = _
  refine congrArg (V m c main_v3) (funext fun a => Fin.ext ?_)
  match a with
  | ⟨0, _⟩ => show win0_2.index t 0 * 1 + 1 * (j 0).val = (j 0).val; rw [hi.1]; omega
  | ⟨1, _⟩ => show win0_2.index t 1 * 3072 + 1 * (j 1).val = (j 1).val; rw [hi.2]; omega

/-! ## The arrays the host operations wrote -/

/-- Three vectors joined end to end, read inside the first: entry i. -/
theorem concat3_vec_fst {α : Type} {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0) (k : Fin n) (i : Fin a)
    (hk : k.val = i.val) :
    concatenate ⟨1, ![n]⟩ 0 [⟨⟨1, ![a]⟩, x⟩, ⟨⟨1, ![b]⟩, y⟩, ⟨⟨1, ![c]⟩, z⟩] h (ix1 k) = x (ix1 i) :=
  concatenate_apply_piece (t := ⟨1, ![n]⟩) 0 [⟨⟨1, ![a]⟩, x⟩, ⟨⟨1, ![b]⟩, y⟩, ⟨⟨1, ![c]⟩, z⟩] h _ 0 (by simp) ⟨1, ![a]⟩ x rfl rfl 0 rfl
    (ix1 i) (fun q hq => by
      match q with
      | ⟨0, _⟩ => exact absurd rfl hq) (by show 0 + i.val = k.val; omega)

/-- Three vectors joined end to end, read inside the second: entry a + i. -/
theorem concat3_vec_snd {α : Type} {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0) (k : Fin n) (i : Fin b)
    (hk : k.val = a + i.val) :
    concatenate ⟨1, ![n]⟩ 0 [⟨⟨1, ![a]⟩, x⟩, ⟨⟨1, ![b]⟩, y⟩, ⟨⟨1, ![c]⟩, z⟩] h (ix1 k) = y (ix1 i) :=
  concatenate_apply_piece (t := ⟨1, ![n]⟩) 0 [⟨⟨1, ![a]⟩, x⟩, ⟨⟨1, ![b]⟩, y⟩, ⟨⟨1, ![c]⟩, z⟩] h _ 1 (by simp) ⟨1, ![b]⟩ y rfl rfl a rfl
    (ix1 i) (fun q hq => by
      match q with
      | ⟨0, _⟩ => exact absurd rfl hq) (by show a + i.val = k.val; omega)

/-- Three vectors joined end to end, read inside the third: entry a + b + i. -/
theorem concat3_vec_thd {α : Type} {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0) (k : Fin n) (i : Fin c)
    (hk : k.val = a + b + i.val) :
    concatenate ⟨1, ![n]⟩ 0 [⟨⟨1, ![a]⟩, x⟩, ⟨⟨1, ![b]⟩, y⟩, ⟨⟨1, ![c]⟩, z⟩] h (ix1 k) = z (ix1 i) :=
  concatenate_apply_piece (t := ⟨1, ![n]⟩) 0 [⟨⟨1, ![a]⟩, x⟩, ⟨⟨1, ![b]⟩, y⟩, ⟨⟨1, ![c]⟩, z⟩] h _ 2 (by simp) ⟨1, ![c]⟩ z rfl rfl (a + b) rfl
    (ix1 i) (fun q hq => by
      match q with
      | ⟨0, _⟩ => exact absurd rfl hq) (by show a + b + i.val = k.val; omega)

/-- The joined weights as the region finds them: the three weight matrices side by side; the narrowing of the format is
    the identity on the extended reals. -/
theorem Vv1_eq : (V m c main_v1 : S1024x3072.Idx → EReal)
    = truncf (F := Ideal) .bf16 (concatenate S1024x3072 1
        [⟨S1024x1024, (m ((c : Thread nD τ).loc main_arg1) : S1024x1024.Idx → EReal)⟩,
         ⟨S1024x1024, (m ((c : Thread nD τ).loc main_arg3) : S1024x1024.Idx → EReal)⟩,
         ⟨S1024x1024, (m ((c : Thread nD τ).loc main_arg5) : S1024x1024.Idx → EReal)⟩]
        concatenates_S1024x1024_S1024x1024_S1024x1024_S1024x3072_d1) bitsLt_bf16_f32 := by
  dsimp only [Gen.V, Gen.V0]
  simp only [Gen.hostOps0, List.flatten_cons, List.flatten_nil, List.append_nil, List.cons_append, List.nil_append]
  after_results
  rfl

/-- Column d of the joined weights is column d of the query weights. -/
theorem Vv1_q (h d : Fin 1024) :
    (V m c main_v1 : S1024x3072.Idx → EReal) (ix2 h (⟨d.val, by omega⟩ : Fin 3072)) = m ((c : Thread nD τ).loc main_arg1) (ix2 h d) := by
  rw [Vv1_eq]
  exact Cert.LibConcatCols.concat3_cols_fst _ _ _ concatenates_S1024x1024_S1024x1024_S1024x1024_S1024x3072_d1 h _ d rfl

/-- Column 1024 + d of the joined weights is column d of the key weights. -/
theorem Vv1_k (h d : Fin 1024) :
    (V m c main_v1 : S1024x3072.Idx → EReal) (ix2 h (⟨1024 + d.val, by omega⟩ : Fin 3072)) = m ((c : Thread nD τ).loc main_arg3) (ix2 h d) := by
  rw [Vv1_eq]
  exact Cert.LibConcatCols.concat3_cols_snd _ _ _ concatenates_S1024x1024_S1024x1024_S1024x1024_S1024x3072_d1 h _ d rfl

/-- Column 2048 + d of the joined weights is column d of the value weights. -/
theorem Vv1_v (h d : Fin 1024) :
    (V m c main_v1 : S1024x3072.Idx → EReal) (ix2 h (⟨2048 + d.val, by omega⟩ : Fin 3072)) = m ((c : Thread nD τ).loc main_arg5) (ix2 h d) := by
  rw [Vv1_eq]
  exact Cert.LibConcatCols.concat3_cols_thd _ _ _ concatenates_S1024x1024_S1024x1024_S1024x1024_S1024x3072_d1 h _ d rfl

/-- The joined bias row as the region finds it: the three bias vectors end to end, laid as one row. -/
theorem Vv3_eq : (V m c main_v3 : S1x3072.Idx → EReal)
    = shapeCast S1x3072 (concatenate S3072 0
        [⟨S1024, (m ((c : Thread nD τ).loc main_arg2) : S1024.Idx → EReal)⟩,
         ⟨S1024, (m ((c : Thread nD τ).loc main_arg4) : S1024.Idx → EReal)⟩,
         ⟨S1024, (m ((c : Thread nD τ).loc main_arg6) : S1024.Idx → EReal)⟩]
        concatenates_S1024_S1024_S1024_S3072_d0) shapeCasts_S3072_S1x3072 := by
  dsimp only [Gen.V, Gen.V0]
  simp only [Gen.hostOps0, List.flatten_cons, List.flatten_nil, List.append_nil, List.cons_append, List.nil_append]
  after_results
  beta_reduce
  after_results
  rfl

/-- Entry d of the joined bias row is entry d of the query bias. -/
theorem Vv3_q (d : Fin 1024) :
    (V m c main_v3 : S1x3072.Idx → EReal) (ix2 (0 : Fin 1) (⟨d.val, by omega⟩ : Fin 3072)) = m ((c : Thread nD τ).loc main_arg2) (ix1 d) := by
  rw [Vv3_eq]
  exact (shapeCast_a_1a_apply _ _ (0 : Fin 1) _).trans
    (concat3_vec_fst _ _ _ concatenates_S1024_S1024_S1024_S3072_d0 _ d rfl)

/-- Entry 1024 + d of the joined bias row is entry d of the key bias. -/
theorem Vv3_k (d : Fin 1024) :
    (V m c main_v3 : S1x3072.Idx → EReal) (ix2 (0 : Fin 1) (⟨1024 + d.val, by omega⟩ : Fin 3072)) = m ((c : Thread nD τ).loc main_arg4) (ix1 d) := by
  rw [Vv3_eq]
  exact (shapeCast_a_1a_apply _ _ (0 : Fin 1) _).trans
    (concat3_vec_snd _ _ _ concatenates_S1024_S1024_S1024_S3072_d0 _ d rfl)

/-- Entry 2048 + d of the joined bias row is entry d of the value bias. -/
theorem Vv3_v (d : Fin 1024) :
    (V m c main_v3 : S1x3072.Idx → EReal) (ix2 (0 : Fin 1) (⟨2048 + d.val, by omega⟩ : Fin 3072)) = m ((c : Thread nD τ).loc main_arg6) (ix1 d) := by
  rw [Vv3_eq]
  exact (shapeCast_a_1a_apply _ _ (0 : Fin 1) _).trans
    (concat3_vec_thd _ _ _ concatenates_S1024_S1024_S1024_S3072_d0 _ d rfl)

end Cert.KernelIdeal.LoadsAt

end
-- ==== Proof.AttnSpec.lean ====
/-
  The mathematics both programs compute, stated once on the extended reals with the exact operations.

  For one batch element: three projections q = x·Wq + bq, k = x·Wk + bk, v = x·Wv + bv of the 2048 rows of x; for a
  query row with projected vector `qv` the scores against the 2048 keys, scaled by a constant c; the row's softmax
  (scores minus their maximum, exponentiated, divided by their sum); the weighted sum of the value rows; finally
  the mean over the 2048 query rows, written as the sum times a constant.  A query row's attended vector depends
  only on that row's projected query and on all keys and values: `attRow`.  The two constants are kept as the
  float words the kernel spells them with (1/32 and 1/2048); nothing here evaluates them.
-/
import Idealize.ShloMosaic.PureOps.Ideal
import Idealize.ShloMosaic.Lib.ValueIdx

noncomputable section

namespace Cert.Attn

open Idealize.ShloMosaic Idealize.ShloMosaic.ValueIdx
open scoped BigOperators

abbrev SX : Shape := ⟨3, ![16, 2048, 1024]⟩
abbrev SW : Shape := ⟨2, ![1024, 1024]⟩
abbrev SB : Shape := ⟨1, ![1024]⟩
abbrev SO : Shape := ⟨2, ![16, 1024]⟩

/-- The score scale, the f32 word of 1/32. -/
def scaleW : EReal := Ideal.ofBits .f32 0x3D000000#32
/-- The mean's factor, the f32 word of 1/2048. -/
def invSW : EReal := Ideal.ofBits .f32 0x3A000000#32
/-- The start of a running maximum, the f32 word of -inf. -/
def negInfW : EReal := Ideal.ofBits .f32 0xFF800000#32

/-- Row s of x times W plus the bias, at column d, in batch element n. -/
def proj (x : SX.Idx → EReal) (W : SW.Idx → EReal) (b : SB.Idx → EReal) (n : Fin 16) (s : Fin 2048) (d : Fin 1024) : EReal :=
  (∑ h : Fin 1024, x (ix3 n s h) * W (ix2 h d)) + b (ix1 d)

/-- The scaled score of a projected query vector against key row k. -/
def score (qv : Fin 1024 → EReal) (K : Fin 2048 → Fin 1024 → EReal) (k : Fin 2048) : EReal :=
  (∑ e : Fin 1024, qv e * K k e) * scaleW

/-- The largest score of the row (a running maximum from -inf). -/
def rowMax (qv : Fin 1024 → EReal) (K : Fin 2048 → Fin 1024 → EReal) : EReal :=
  (Finset.univ : Finset (Fin 2048)).fold max negInfW (fun k => score qv K k)

/-- exp (score - max). -/
def expo (qv : Fin 1024 → EReal) (K : Fin 2048 → Fin 1024 → EReal) (k : Fin 2048) : EReal :=
  Ideal.exp (score qv K k - rowMax qv K)

/-- The softmax weight of key k. -/
def weight (qv : Fin 1024 → EReal) (K : Fin 2048 → Fin 1024 → EReal) (k : Fin 2048) : EReal :=
  Ideal.div (expo qv K k) (∑ k' : Fin 2048, expo qv K k')

/-- The attended vector of one query row, at column d. -/
def attRow (qv : Fin 1024 → EReal) (K V : Fin 2048 → Fin 1024 → EReal) (d : Fin 1024) : EReal :=
  ∑ k : Fin 2048, weight qv K k * V k d

/-- The mean-pooled attention of batch element n at column d. -/
def pooled (Q K V : Fin 16 → Fin 2048 → Fin 1024 → EReal) (n : Fin 16) (d : Fin 1024) : EReal :=
  (∑ q : Fin 2048, attRow (Q n q) (K n) (V n) d) * invSW

/-- The whole function of the seven argument arrays. -/
def G (x : SX.Idx → EReal) (Wq : SW.Idx → EReal) (bq : SB.Idx → EReal) (Wk : SW.Idx → EReal) (bk : SB.Idx → EReal)
    (Wv : SW.Idx → EReal) (bv : SB.Idx → EReal) : SO.Idx → EReal :=
  fun i => pooled (proj x Wq bq) (proj x Wk bk) (proj x Wv bv) (i 0) (i 1)

end Cert.Attn

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«128170_j66357244723910_2_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.PayloadAt.lean ====
/-
  The kernel body's arithmetic, read at an index on the extended reals.

  Each payload of the kernel is a chain of vector operations; here every one of them is read at an output index given by
  coordinates, as the formula the chain computes there. The two key/value projections are x·W + b; the accumulated row is
  the sum over the 512 query rows of a tile of the attended vector of that row: the row's projected query against all keys,
  scaled, softmax along the keys (scores minus their maximum, exponentiated, divided by their sum), then the weighted sum of
  the value rows. Format changes are the identity on the extended reals, a product into a zero accumulator is the plain sum
  over the contracted coordinate, and the float words of the scale, of minus infinity and of the mean's factor are never
  evaluated: they are the specification's own words.
-/
import proofs.«128170_j66357244723910_2_alg».proof.Proof.Gen.KernelIdeal.Skeleton
import proofs.«128170_j66357244723910_2_alg».proof.Proof.AttnSpec
import proofs.«128170_j66357244723910_2_alg».proof.Proof.LibMatmulRows
import proofs.«128170_j66357244723910_2_alg».proof.Proof.LibLayout
import proofs.«128170_j66357244723910_2_alg».proof.Proof.LibLaneMax
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx
open scoped BigOperators

/-! ## The three short payloads -/

/-- The accumulator update: the stored row plus the tile's row, entry by entry. -/
theorem pay1_at (v35 : FVec Ideal S1x1024 .f32) (v36 : Vec Ideal S1x1024 .f32) (i : S1x1024.Idx) :
    k0_pay1 (F := Ideal) v35 v36 i = v36 i + v35 i := by
  unfold k0_pay1
  rw [shapeCast_self]
  rfl

/-- The mean: the accumulated row times the factor's word, laid out as [1, 1, 1024]. -/
theorem pay2_at (v44 : Vec Ideal S1x1024 .f32) (d : Fin 1024) :
    k0_pay2 (F := Ideal) v44 (ix3 (0 : Fin 1) (0 : Fin 1) d) = v44 (ix2 (0 : Fin 1) d) * Cert.Attn.invSW := by
  unfold k0_pay2
  refine (shapeCast_ab_1ab_apply _ _ (0 : Fin 1) (0 : Fin 1) d).trans ?_
  rfl

/-- The accumulator's start: the zero word everywhere. -/
theorem pay6_at (i : S1x1024.Idx) : k0_pay6 (F := Ideal) i = 0 := by
  unfold k0_pay6
  rw [shapeCast_self]
  exact Ideal.ofBits_zero_f32

/-! ## The key and value projections -/

/-- The rows of x as a matrix: the leading unit axis dropped; the change of format is the identity. -/
theorem pay3_at (v44 : Vec Ideal S1x2048x1024 .f32) (s : Fin 2048) (h : Fin 1024) :
    k0_pay3 (F := Ideal) v44 (ix2 s h) = v44 (ix3 (0 : Fin 1) s h) := by
  unfold k0_pay3
  exact shapeCast_1ab_ab_apply v44 _ s h

/-- A projection of the 2048 rows: row s of x against column d of the weights, plus the bias row at d. -/
theorem pay4_at (v44 : Vec Ideal S1x2048x1024 .f32) (v47 : Vec Ideal S1024x1024 .bf16) (v51 : Vec Ideal S1x1024 .f32)
    (s : Fin 2048) (d : Fin 1024) :
    k0_pay4 (F := Ideal) v44 v47 v51 (ix2 s d)
      = (∑ h : Fin 1024, v44 (ix3 (0 : Fin 1) s h) * v47 (ix2 h d)) + v51 (ix2 (0 : Fin 1) d) := by
  unfold k0_pay4
  simp only [shapeCast_self]
  refine (congrArg₂ (· + ·)
    (Cert.LibMatmulRows.matmul_rows dot_S2048x1024_S1024x1024_S2048x1024_1_0_0_1_n_n rfl rfl (fun _ _ => rfl) (fun _ _ => rfl)
      (fun _ _ => rfl) (fun _ _ => rfl) (k0_pay3 (F := Ideal) v44) v47 s d)
    (broadcastTo_1b_ab_apply v51 _ s d)).trans ?_
  exact congrArg (· + v51 (ix2 (0 : Fin 1) d)) (Finset.sum_congr rfl fun h _ => by rw [pay3_at])

/-- The other projection of the 2048 rows is the same chain of operations. -/
theorem pay5_at (v44 : Vec Ideal S1x2048x1024 .f32) (v49 : Vec Ideal S1024x1024 .bf16) (v53 : Vec Ideal S1x1024 .f32)
    (s : Fin 2048) (d : Fin 1024) :
    k0_pay5 (F := Ideal) v44 v49 v53 (ix2 s d)
      = (∑ h : Fin 1024, v44 (ix3 (0 : Fin 1) s h) * v49 (ix2 h d)) + v53 (ix2 (0 : Fin 1) d) :=
  pay4_at v44 v49 v53 s d

/-! ## The accumulated row of one tile of 512 query rows

The payload is a chain of eight stages. Each stage is named here as a function of the values it reads, read at an index
over variables, and the payload is their composition. -/

/-- The tile's projected queries: the tile's 512 rows against the query weights, plus the bias row. -/
def tileQ (v6 : FVec Ideal S1x512x1024 .f32) (v9 : FVec Ideal S1024x1024 .bf16) (v11 : FVec Ideal S1x1024 .f32) :
    FVec Ideal S512x1024 .bf16 :=
  truncf .bf16 (addf
    (matmul dot_S512x1024_S1024x1024_S512x1024_1_0_0_1_n_n none
      (truncf .bf16 (shapeCast S512x1024 v6 shapeCasts_S1x512x1024_S512x1024) bitsLt_bf16_f32)
      (shapeCast S1024x1024 v9 shapeCasts_S1024x1024_S1024x1024) (constant (F := Ideal) S512x1024 .f32 0x00000000#32))
    (broadcastTo S512x1024 (shapeCast S1x1024 v11 shapeCasts_S1x1024_S1x1024) broadcasts_S1x1024_S512x1024)) bitsLt_bf16_f32

/-- The scaled scores of the tile's rows against the 2048 keys: the queries times the transposed keys, times the scale's word. -/
def scores (q : FVec Ideal S512x1024 .bf16) (K : FVec Ideal S2048x1024 .bf16) : FVec Ideal S512x2048 .f32 :=
  mulf (matmul dot_S512x1024_S1024x2048_S512x2048_1_0_0_1_n_n none q
      (transpose S1024x2048 [1, 0] K transposes_S2048x1024_p1_0_S1024x2048) (constant (F := Ideal) S512x2048 .f32 0x00000000#32))
    (broadcast S512x2048 (Scalar.ofBits .f32 0x3D000000#32 : Ideal .f32))

/-- Each row's largest entry (a running maximum from minus infinity), laid along the row. -/
def rowMaxB (sc : FVec Ideal S512x2048 .f32) : FVec Ideal S512x2048 .f32 :=
  broadcastTo S512x2048
    (shapeCast S512x1 (multiReduction .maximumf [1] S512 sc 0xFF800000#32 reduces_S512x2048_S512 (.inl rfl) rfl) shapeCasts_S512_S512x1)
    broadcasts_S512x1_S512x2048

/-- The exponentials of the entries minus their row's maximum. -/
def expos (sc : FVec Ideal S512x2048 .f32) : FVec Ideal S512x2048 .f32 := exp (subf sc (rowMaxB sc))

/-- Each row's sum, laid along the row. -/
def rowSumB (ex : FVec Ideal S512x2048 .f32) : FVec Ideal S512x2048 .f32 :=
  broadcastTo S512x2048
    (shapeCast S512x1 (multiReduction .add [1] S512 ex 0x00000000#32 reduces_S512x2048_S512 (.inl rfl) rfl) shapeCasts_S512_S512x1)
    broadcasts_S512x1_S512x2048

/-- The entries divided by their row's sum. -/
def weights (ex : FVec Ideal S512x2048 .f32) : FVec Ideal S512x2048 .bf16 :=
  truncf .bf16 (divf ex (rowSumB ex)) bitsLt_bf16_f32

/-- The weighted sums of the value rows. -/
def attended (w : FVec Ideal S512x2048 .bf16) (V : FVec Ideal S2048x1024 .bf16) : FVec Ideal S512x1024 .f32 :=
  matmul dot_S512x2048_S2048x1024_S512x1024_1_0_0_1_n_n none w V (constant (F := Ideal) S512x1024 .f32 0x00000000#32)

/-- The sum over the 512 rows, as one row. -/
def rowsSum (m : FVec Ideal S512x1024 .f32) : FVec Ideal S1x1024 .f32 :=
  shapeCast S1x1024 (multiReduction .add [0] S1024 m 0x00000000#32 reduces_S512x1024_S1024 (.inl rfl) rfl) shapeCasts_S1024_S1x1024

/-- The payload is the composition of the stages. -/
theorem pay7_eq (v6 : Vec Ideal S1x512x1024 .f32) (v9 : Vec Ideal S1024x1024 .bf16) (v11 : Vec Ideal S1x1024 .f32)
    (v17 v18 : Vec Ideal S2048x1024 .bf16) :
    k0_pay7 (F := Ideal) v6 v9 v11 v17 v18 = rowsSum (attended (weights (expos (scores (tileQ v6 v9 v11) v17))) v18) := rfl

/-- Row r of the tile against column e of the query weights, plus the bias row at e. -/
theorem tileQ_at (v6 : FVec Ideal S1x512x1024 .f32) (v9 : FVec Ideal S1024x1024 .bf16) (v11 : FVec Ideal S1x1024 .f32)
    (r : Fin 512) (e : Fin 1024) :
    tileQ v6 v9 v11 (ix2 r e) = (∑ h : Fin 1024, v6 (ix3 (0 : Fin 1) r h) * v9 (ix2 h e)) + v11 (ix2 (0 : Fin 1) e) := by
  unfold tileQ
  simp only [shapeCast_self]
  refine (congrArg₂ (· + ·)
    (Cert.LibMatmulRows.matmul_rows dot_S512x1024_S1024x1024_S512x1024_1_0_0_1_n_n rfl rfl (fun _ _ => rfl) (fun _ _ => rfl)
      (fun _ _ => rfl) (fun _ _ => rfl)
      (truncf .bf16 (shapeCast S512x1024 v6 shapeCasts_S1x512x1024_S512x1024) bitsLt_bf16_f32) v9 r e)
    (broadcastTo_1b_ab_apply v11 _ r e)).trans ?_
  exact congrArg (· + v11 (ix2 (0 : Fin 1) e))
    (Finset.sum_congr rfl fun h _ => congrArg (· * v9 (ix2 h e)) (shapeCast_1ab_ab_apply v6 _ r h))

/-- The score of row r against key k: the row's query against the key's row, times the scale. -/
theorem scores_at (q : FVec Ideal S512x1024 .bf16) (K : FVec Ideal S2048x1024 .bf16) (r : Fin 512) (k : Fin 2048) :
    scores q K (ix2 r k) = Cert.Attn.score (fun e => q (ix2 r e)) (fun k e => K (ix2 k e)) k := by
  unfold scores Cert.Attn.score Cert.Attn.scaleW
  refine congrArg (· * Ideal.ofBits .f32 0x3D000000#32) ?_
  exact (Cert.LibMatmulRows.matmul_rows dot_S512x1024_S1024x2048_S512x2048_1_0_0_1_n_n rfl rfl (fun _ _ => rfl) (fun _ _ => rfl)
      (fun _ _ => rfl) (fun _ _ => rfl) q (transpose S1024x2048 [1, 0] K transposes_S2048x1024_p1_0_S1024x2048) r k).trans
    (Finset.sum_congr rfl fun e _ => congrArg (q (ix2 r e) * ·) (transpose_ix2_apply K _ e k))

/-- The row maximum laid along the row reads, anywhere in row r, the fold of max over the row from minus infinity's word. -/
theorem rowMaxB_at (sc : FVec Ideal S512x2048 .f32) (r : Fin 512) (k : Fin 2048) :
    rowMaxB sc (ix2 r k)
      = (Finset.univ : Finset (Fin 2048)).fold max (Ideal.ofBits .f32 0xFF800000#32) (fun k' => sc (ix2 r k')) := by
  unfold rowMaxB
  exact (Cert.LibLayout.broadcastTo_a1_ab_apply _ _ r k).trans
    ((Cert.LibLayout.shapeCast_a_a1_apply _ _ r (0 : Fin 1)).trans (Cert.LibLaneMax.laneMax_apply sc _ _ _ _ r))

/-- The row sum laid along the row reads, anywhere in row r, the sum of the row's entries. -/
theorem rowSumB_at (ex : FVec Ideal S512x2048 .f32) (r : Fin 512) (k : Fin 2048) :
    rowSumB ex (ix2 r k) = ∑ k' : Fin 2048, ex (ix2 r k') := by
  unfold rowSumB
  exact (Cert.LibLayout.broadcastTo_a1_ab_apply _ _ r k).trans
    ((Cert.LibLayout.shapeCast_a_a1_apply _ _ r (0 : Fin 1)).trans (Cert.LibLayout.laneSum_apply ex _ _ _ r))

/-- Row r of the weights against column d of the values. -/
theorem attended_at (w : FVec Ideal S512x2048 .bf16) (V : FVec Ideal S2048x1024 .bf16) (r : Fin 512) (d : Fin 1024) :
    attended w V (ix2 r d) = ∑ k : Fin 2048, w (ix2 r k) * V (ix2 k d) := by
  unfold attended
  exact Cert.LibMatmulRows.matmul_rows dot_S512x2048_S2048x1024_S512x1024_1_0_0_1_n_n rfl rfl (fun _ _ => rfl) (fun _ _ => rfl)
      (fun _ _ => rfl) (fun _ _ => rfl) w V r d

/-- Over column c of a matrix, the index with row r put back on the summed axis is (r, c). -/
theorem lift_col {a b : ℕ} (h : Shape.Reduces ⟨2, ![a, b]⟩ [0] ⟨1, ![b]⟩) (c : Fin b) (r : Fin a) :
    h.lift (ix1 c) r = ix2 r c := by
  funext x
  refine Fin.ext ?_
  match x with
  | ⟨0, _⟩ => rfl
  | ⟨1, _⟩ => rfl

/-- The sum over the 512 rows, read at column d: the sum over r of the entries (r, d). -/
theorem rowsSum_at (m : FVec Ideal S512x1024 .f32) (d : Fin 1024) :
    rowsSum m (ix2 (0 : Fin 1) d) = ∑ r : Fin 512, m (ix2 r d) := by
  unfold rowsSum
  refine (shapeCast_a_1a_apply _ _ (0 : Fin 1) d).trans ?_
  refine (Ideal.multiReduction_add_single m 0x00000000#32 reduces_S512x1024_S1024 _ _ (ix1 d)).trans ?_
  exact Finset.sum_congr rfl fun r _ => congrArg m (lift_col reduces_S512x1024_S1024 d r)

/-- The softmax of one row: if row r of the scores is the specification's scores of a query vector against the keys, row r of
    the weights is the specification's softmax weights. -/
theorem weights_at (sc : FVec Ideal S512x2048 .f32) (qv : Fin 1024 → EReal) (K : Fin 2048 → Fin 1024 → EReal) (r : Fin 512)
    (hsc : ∀ k : Fin 2048, sc (ix2 r k) = Cert.Attn.score qv K k) (k : Fin 2048) :
    weights (expos sc) (ix2 r k) = Cert.Attn.weight qv K k := by
  have hM : ∀ k : Fin 2048, rowMaxB sc (ix2 r k) = Cert.Attn.rowMax qv K := fun k =>
    (rowMaxB_at sc r k).trans
      (congrArg (fun f : Fin 2048 → EReal => (Finset.univ : Finset (Fin 2048)).fold max (Ideal.ofBits .f32 0xFF800000#32) f)
        (funext hsc))
  have hE : ∀ k : Fin 2048, expos sc (ix2 r k) = Cert.Attn.expo qv K k := fun k => by
    show Ideal.exp (sc (ix2 r k) - rowMaxB sc (ix2 r k)) = _
    rw [hsc k, hM k]
    rfl
  have hS : ∀ k : Fin 2048, rowSumB (expos sc) (ix2 r k) = ∑ k' : Fin 2048, Cert.Attn.expo qv K k' := fun k =>
    (rowSumB_at (expos sc) r k).trans (Finset.sum_congr rfl fun k' _ => hE k')
  show Ideal.div (expos sc (ix2 r k)) (rowSumB (expos sc) (ix2 r k)) = _
  rw [hE k, hS k]
  rfl

/-- The accumulated row of a tile: the sum over the tile's 512 rows of the attended vector of each row's projected query
    against all keys and values. -/
theorem pay7_at (v6 : Vec Ideal S1x512x1024 .f32) (v9 : Vec Ideal S1024x1024 .bf16) (v11 : Vec Ideal S1x1024 .f32)
    (v17 v18 : Vec Ideal S2048x1024 .bf16) (d : Fin 1024) :
    k0_pay7 (F := Ideal) v6 v9 v11 v17 v18 (ix2 (0 : Fin 1) d)
      = ∑ r : Fin 512, Cert.Attn.attRow
          (fun e : Fin 1024 => (∑ h : Fin 1024, v6 (ix3 (0 : Fin 1) r h) * v9 (ix2 h e)) + v11 (ix2 (0 : Fin 1) e))
          (fun k e => v17 (ix2 k e)) (fun k e => v18 (ix2 k e)) d := by
  rw [pay7_eq, rowsSum_at]
  refine Finset.sum_congr rfl fun r _ => ?_
  rw [attended_at]
  unfold Cert.Attn.attRow
  refine Finset.sum_congr rfl fun k _ => congrArg (· * v18 (ix2 k d)) ?_
  refine weights_at _ _ _ r (fun k' => ?_) k
  rw [scores_at]
  exact congrArg (fun qv : Fin 1024 → EReal => Cert.Attn.score qv (fun k e => v17 (ix2 k e)) k')
    (funext fun e => tileQ_at v6 v9 v11 r e)

end Cert.KernelIdeal.PayAt

end
-- ==== Proof.LibBlockedSum.lean ====
/-
  GENERAL lemmas: a contraction accumulated block by block is the whole contraction.

  A sum over `K * b` indices, cut into `K` consecutive blocks of width `b`, is the sum of the blocks' sums
  (`sum_blocks`: the index `k * b + i` of block `k`, place `i`, runs through `Fin (K * b)` exactly once). An
  accumulator that starts at `0 + p 0` and adds `p (k + 1)` at step `k + 1` holds the sum of `p 0 … p k` after step
  `k` (`acc_eq_sum_range`). Together (`blocked_acc`): after the last block the accumulator is the whole sum.

  Everything is stated over an additive commutative monoid, so it holds on the extended reals with no finiteness
  hypothesis (the sum of extended reals is associative and commutative, the infinities included).

  The instances at literal extents — two and four blocks of width 512, the whole sum over `Fin 1024` and over
  `Fin 2048` — are stated separately, with the whole sum's index type spelt as the literal, so that they apply to a
  goal written over `Fin 1024` / `Fin 2048` without unfolding a product of numerals.
-/
import Mathlib.Algebra.BigOperators.Fin
import Mathlib.Algebra.BigOperators.Group.Finset.Basic
import Mathlib.Logic.Equiv.Fin.Basic

namespace Cert.Bridge

open scoped BigOperators

variable {M : Type*} [AddCommMonoid M]

/-! ## The general statements -/

/-- Place `i` of block `k` is an index of the whole: `k * b + i < K * b`. -/
theorem blk_lt {K b : ℕ} (k : Fin K) (i : Fin b) : k.val * b + i.val < K * b :=
  calc k.val * b + i.val < k.val * b + b := Nat.add_lt_add_left i.2 _
    _ = (k.val + 1) * b := (Nat.succ_mul _ _).symm
    _ ≤ K * b := Nat.mul_le_mul_right _ k.2

/-- The sum of the `K` blocks' sums is the whole sum: `(k, i) ↦ k * b + i` is a bijection of
    `Fin K × Fin b` with `Fin (K * b)`. -/
theorem sum_blocks (K b : ℕ) (f : Fin (K * b) → M) :
    ∑ k : Fin K, ∑ i : Fin b, f ⟨k.val * b + i.val, blk_lt k i⟩ = ∑ j : Fin (K * b), f j := by
  rw [← (finProdFinEquiv (m := K) (n := b)).sum_comp f, Fintype.sum_prod_type]
  refine Fintype.sum_congr _ _ fun k => Fintype.sum_congr _ _ fun i => congrArg f (Fin.ext ?_)
  show k.val * b + i.val = i.val + b * k.val
  rw [Nat.mul_comm, Nat.add_comm]

/-- An accumulator started at `0 + p 0` that adds `p (k + 1)` at step `k + 1` holds `p 0 + … + p k` after step `k`. -/
theorem acc_eq_sum_range (p acc : ℕ → M) (h0 : acc 0 = 0 + p 0) (hs : ∀ k, acc (k + 1) = acc k + p (k + 1))
    (k : ℕ) : acc k = ∑ k' ∈ Finset.range (k + 1), p k' := by
  induction k with
  | zero => rw [h0, zero_add, Finset.sum_range_one]
  | succ n ih => rw [hs, ih, Finset.sum_range_succ _ (n + 1)]

/-- Blockwise accumulation of a contraction over `(K + 1) * b` indices in `K + 1` blocks of width `b`: if the
    `k`-th partial product `P k` is the sum of `f` over block `k`, and the accumulator starts at `0 + P 0` and adds
    `P (k + 1)` at step `k + 1`, then after the last step (`k = K`) it is the whole sum of `f`. -/
theorem blocked_acc (K b : ℕ) (f : Fin ((K + 1) * b) → M) (P acc : ℕ → M)
    (hP : ∀ k : Fin (K + 1), P k.val = ∑ i : Fin b, f ⟨k.val * b + i.val, blk_lt k i⟩)
    (h0 : acc 0 = 0 + P 0) (hs : ∀ k, acc (k + 1) = acc k + P (k + 1)) :
    acc K = ∑ j : Fin ((K + 1) * b), f j := by
  rw [acc_eq_sum_range P acc h0 hs K, ← sum_blocks (K + 1) b f, ← Fin.sum_univ_eq_sum_range]
  exact Fintype.sum_congr _ _ hP

/-! ## Two blocks of width 512: the whole sum over `Fin 1024` -/

/-- Place `i` of block `k` of two blocks of width 512, as an index of `Fin 1024`. -/
def at1024 (k : Fin 2) (i : Fin 512) : Fin 1024 := ⟨k.val * 512 + i.val, blk_lt (K := 2) (b := 512) k i⟩

@[simp] theorem at1024_val (k : Fin 2) (i : Fin 512) : (at1024 k i).val = k.val * 512 + i.val := rfl

/-- Two blocks of width 512 make the sum over `Fin 1024`. -/
theorem sum_blocks_1024 (f : Fin 1024 → M) :
    (∑ i : Fin 512, f (at1024 0 i)) + ∑ i : Fin 512, f (at1024 1 i) = ∑ j : Fin 1024, f j := by
  have h := sum_blocks (M := M) 2 512 f
  rw [Fin.sum_univ_two] at h
  exact h

/-- The accumulated form at two blocks: from a zero accumulator, `0 + p 0 + p 1` with `p k` the sum of `f` over
    block `k` is the sum of `f` over `Fin 1024`. The blocks' entries are given as a function `p k i` with the
    index relation as a hypothesis on VALUES (`j = k * 512 + i`), so that any spelling of the block's index applies. -/
theorem blocked_sum_1024 (f : Fin 1024 → M) (p : Fin 2 → Fin 512 → M)
    (hp : ∀ (k : Fin 2) (i : Fin 512) (j : Fin 1024), j.val = k.val * 512 + i.val → p k i = f j) :
    0 + (∑ i : Fin 512, p 0 i) + ∑ i : Fin 512, p 1 i = ∑ j : Fin 1024, f j := by
  rw [zero_add, ← sum_blocks_1024 f]
  congr 1 <;> exact Fintype.sum_congr _ _ fun i => hp _ i _ rfl

/-- The same with named accumulator states: `a0 = 0 + p 0`, `a1 = a0 + p 1`; then `a1` is the whole sum. -/
theorem blocked_acc_1024 (f : Fin 1024 → M) (p : Fin 2 → Fin 512 → M)
    (hp : ∀ (k : Fin 2) (i : Fin 512) (j : Fin 1024), j.val = k.val * 512 + i.val → p k i = f j)
    (a0 a1 : M) (h0 : a0 = 0 + ∑ i : Fin 512, p 0 i) (h1 : a1 = a0 + ∑ i : Fin 512, p 1 i) :
    a1 = ∑ j : Fin 1024, f j := by
  rw [h1, h0]; exact blocked_sum_1024 f p hp

/-! ## Four blocks of width 512: the whole sum over `Fin 2048` -/

/-- Place `i` of block `k` of four blocks of width 512, as an index of `Fin 2048`. -/
def at2048 (k : Fin 4) (i : Fin 512) : Fin 2048 := ⟨k.val * 512 + i.val, blk_lt (K := 4) (b := 512) k i⟩

@[simp] theorem at2048_val (k : Fin 4) (i : Fin 512) : (at2048 k i).val = k.val * 512 + i.val := rfl

/-- Four blocks of width 512 make the sum over `Fin 2048`. -/
theorem sum_blocks_2048 (f : Fin 2048 → M) :
    (∑ i : Fin 512, f (at2048 0 i)) + (∑ i : Fin 512, f (at2048 1 i)) + (∑ i : Fin 512, f (at2048 2 i))
      + ∑ i : Fin 512, f (at2048 3 i) = ∑ j : Fin 2048, f j := by
  have h := sum_blocks (M := M) 4 512 f
  rw [Fin.sum_univ_four] at h
  exact h

/-- The accumulated form at four blocks: `0 + p 0 + p 1 + p 2 + p 3`, each `p k` the sum of `f` over block `k`, is the
    sum of `f` over `Fin 2048`. The index relation is a hypothesis on VALUES (`j = k * 512 + i`). -/
theorem blocked_sum_2048 (f : Fin 2048 → M) (p : Fin 4 → Fin 512 → M)
    (hp : ∀ (k : Fin 4) (i : Fin 512) (j : Fin 2048), j.val = k.val * 512 + i.val → p k i = f j) :
    0 + (∑ i : Fin 512, p 0 i) + (∑ i : Fin 512, p 1 i) + (∑ i : Fin 512, p 2 i) + ∑ i : Fin 512, p 3 i
      = ∑ j : Fin 2048, f j := by
  rw [zero_add, ← sum_blocks_2048 f]
  congr 1
  · congr 1
    · congr 1 <;> exact Fintype.sum_congr _ _ fun i => hp _ i _ rfl
    · exact Fintype.sum_congr _ _ fun i => hp _ i _ rfl
  · exact Fintype.sum_congr _ _ fun i => hp _ i _ rfl

/-- The same with named accumulator states `a0 … a3`; then `a3` is the whole sum. -/
theorem blocked_acc_2048 (f : Fin 2048 → M) (p : Fin 4 → Fin 512 → M)
    (hp : ∀ (k : Fin 4) (i : Fin 512) (j : Fin 2048), j.val = k.val * 512 + i.val → p k i = f j)
    (a0 a1 a2 a3 : M) (h0 : a0 = 0 + ∑ i : Fin 512, p 0 i) (h1 : a1 = a0 + ∑ i : Fin 512, p 1 i)
    (h2 : a2 = a1 + ∑ i : Fin 512, p 2 i) (h3 : a3 = a2 + ∑ i : Fin 512, p 3 i) :
    a3 = ∑ j : Fin 2048, f j := by
  rw [h3, h2, h1, h0]; exact blocked_sum_2048 f p hp

end Cert.Bridge
-- ==== Proof.KIValue.lean ====
/-
  What the fused attention kernel leaves in its result, on the extended reals.

  A batch element n is four grid points.  The first of them fills the key and value scratch with the projections
  k = x·Wk + bk and v = x·Wv + bv of the element's 2048 rows, and starts the running sum at 0 plus its tile's column
  sums; each later one keeps the keys and values and adds its own tile's column sums, a tile's column sum at column d
  being the sum over the tile's 512 query rows of the row's attended vector at d; the last one writes the running sum
  times the mean's factor into block n of the output.  So the output array at (n, 0, d) is the sum over all 2048 query
  rows times that factor: four blocks of 512 consecutive rows are the 2048 rows.  The reshape after the region drops
  the unit axis.
-/
import proofs.«128170_j66357244723910_2_alg».proof.Proof.KIFrame
import proofs.«128170_j66357244723910_2_alg».proof.Proof.KIPieces
import proofs.«128170_j66357244723910_2_alg».proof.Proof.LoadsAt
import proofs.«128170_j66357244723910_2_alg».proof.Proof.PayloadAt
import proofs.«128170_j66357244723910_2_alg».proof.Proof.AttnSpec
import proofs.«128170_j66357244723910_2_alg».proof.Proof.LibBlockedSum
import Idealize.ShloMosaic.Lib.Pipeline.Value
import Idealize.ShloMosaic.Lib.StableHlo.Run
import Idealize.ShloMosaic.Lib.ValueIdx

set_option maxRecDepth 16384

noncomputable section

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat)
open Cert.KernelIdeal.LoadsAt Cert.KernelIdeal.PayAt
open scoped BigOperators

variable (m : (ℓ : Loc nD τ sig) → Buf (Elt Ideal) ℓ) (ρ : Dev nD → PrngReg)

/-! ## The argument arrays and the three projections -/

abbrev aX (c : Dev nD) : S16x2048x1024.Idx → EReal := m ((c : Thread nD τ).loc main_arg0)
abbrev aWq (c : Dev nD) : S1024x1024.Idx → EReal := m ((c : Thread nD τ).loc main_arg1)
abbrev abq (c : Dev nD) : S1024.Idx → EReal := m ((c : Thread nD τ).loc main_arg2)
abbrev aWk (c : Dev nD) : S1024x1024.Idx → EReal := m ((c : Thread nD τ).loc main_arg3)
abbrev abk (c : Dev nD) : S1024.Idx → EReal := m ((c : Thread nD τ).loc main_arg4)
abbrev aWv (c : Dev nD) : S1024x1024.Idx → EReal := m ((c : Thread nD τ).loc main_arg5)
abbrev abv (c : Dev nD) : S1024.Idx → EReal := m ((c : Thread nD τ).loc main_arg6)

/-- The projected queries, keys and values of batch element n. -/
def Qf (c : Dev nD) : Fin 16 → Fin 2048 → Fin 1024 → EReal := Cert.Attn.proj (aX m c) (aWq m c) (abq m c)
def Kf (c : Dev nD) : Fin 16 → Fin 2048 → Fin 1024 → EReal := Cert.Attn.proj (aX m c) (aWk m c) (abk m c)
def Vf (c : Dev nD) : Fin 16 → Fin 2048 → Fin 1024 → EReal := Cert.Attn.proj (aX m c) (aWv m c) (abv m c)

/-- The keys and values as the scratch buffers hold them. -/
def Kvec (c : Dev nD) (n : Fin 16) : Vec Ideal S2048x1024 .bf16 := fun y => Kf m c n (y 0) (y 1)
def Vvec (c : Dev nD) (n : Fin 16) : Vec Ideal S2048x1024 .bf16 := fun y => Vf m c n (y 0) (y 1)

/-- Query row q of batch element n, for any natural q (rows past the last are never read). -/
def Qn (c : Dev nD) (n : Fin 16) (q : ℕ) : Fin 1024 → EReal := if h : q < 2048 then Qf m c n ⟨q, h⟩ else fun _ => 0

/-- The attended vector of query row q at column d. -/
def att (c : Dev nD) (n : Fin 16) (q : Fin 2048) (d : Fin 1024) : EReal := Cert.Attn.attRow (Qf m c n q) (Kf m c n) (Vf m c n) d

/-- The column sums of query tile k (rows 512 k … 512 k + 511). -/
def tileSum (c : Dev nD) (n : Fin 16) (k : ℕ) (d : Fin 1024) : EReal :=
  ∑ r : Fin 512, Cert.Attn.attRow (Qn m c n (512 * k + r.val)) (Kf m c n) (Vf m c n) d

/-- The running sum after tile j of batch element n. -/
def accN (c : Dev nD) (n : Fin 16) : ℕ → Fin 1024 → EReal
  | 0, d => 0 + tileSum m c n 0 d
  | j + 1, d => accN c n j d + tileSum m c n (j + 1) d

def accVec (c : Dev nD) (n : Fin 16) (j : ℕ) : Vec Ideal S1x1024 .f32 := fun y => accN m c n j (y 1)
def outVec (c : Dev nD) (n : Fin 16) : Vec Ideal S1x1x1024 .f32 := fun y => accN m c n 3 (y 2) * Cert.Attn.invSW

/-- After the fourth tile the running sum is the sum over all 2048 query rows. -/
theorem accN_three (c : Dev nD) (n : Fin 16) (d : Fin 1024) : accN m c n 3 d = ∑ q : Fin 2048, att m c n q d := by
  refine Cert.Bridge.blocked_acc_2048 (fun q => att m c n q d)
    (fun k i => Cert.Attn.attRow (Qn m c n (512 * k.val + i.val)) (Kf m c n) (Vf m c n) d) ?_
    (accN m c n 0 d) (accN m c n 1 d) (accN m c n 2 d) (accN m c n 3 d) rfl rfl rfl rfl
  intro k i j hj
  have hq : 512 * k.val + i.val < 2048 := by have := k.isLt; have := i.isLt; omega
  show Cert.Attn.attRow (Qn m c n (512 * k.val + i.val)) _ _ d = Cert.Attn.attRow (Qf m c n j) _ _ d
  unfold Qn
  rw [dif_pos hq]
  exact congrArg (fun q => Cert.Attn.attRow (Qf m c n q) (Kf m c n) (Vf m c n) d) (Fin.ext (by rw [hj]; show 512 * k.val + i.val = k.val * 512 + i.val; omega))

/-! ## The blocks of one grid point, as the projections of its batch element -/

/-- The batch element of grid point t. -/
def bOf (t : ℕ) (h : t < cfg0.N) : Fin 16 := ⟨t / 4, by have : cfg0.N = 64 := N_0; omega⟩

theorem keys_eq (c : Dev nD) (t : Fin cfg0.N) :
    keysOf (F := Ideal) (iblk m c 0 t) (iblk m c 1 t) (iblk m c 2 t) = Kvec m c (bOf t.val t.isLt) := by
  funext y
  obtain ⟨s, d, rfl⟩ : ∃ (s : Fin 2048) (d : Fin 1024), y = ix2 s d := ⟨y 0, y 1, eq_ix2 y⟩
  unfold keysOf
  rw [pay4_at]
  show _ = Cert.Attn.proj (aX m c) (aWk m c) (abk m c) (bOf t.val t.isLt) s d
  unfold Cert.Attn.proj
  rw [ld_bk, iblk2_eq, Vv3_k]
  congr 1
  refine Finset.sum_congr rfl fun h _ => ?_
  rw [iblk0_at, ld_Wk, iblk1_eq, Vv1_k]
  rfl

theorem vals_eq (c : Dev nD) (t : Fin cfg0.N) :
    valsOf (F := Ideal) (iblk m c 0 t) (iblk m c 1 t) (iblk m c 2 t) = Vvec m c (bOf t.val t.isLt) := by
  funext y
  obtain ⟨s, d, rfl⟩ : ∃ (s : Fin 2048) (d : Fin 1024), y = ix2 s d := ⟨y 0, y 1, eq_ix2 y⟩
  unfold valsOf
  rw [pay5_at]
  show _ = Cert.Attn.proj (aX m c) (aWv m c) (abv m c) (bOf t.val t.isLt) s d
  unfold Cert.Attn.proj
  rw [ld_bv, iblk2_eq, Vv3_v]
  congr 1
  refine Finset.sum_congr rfl fun h _ => ?_
  rw [iblk0_at, ld_Wv, iblk1_eq, Vv1_v]
  rfl

/-- The tile's column sums, from the point's blocks and the batch element's keys and values. -/
theorem part_eq (c : Dev nD) (t : Fin cfg0.N) (d : Fin 1024) :
    partOf (F := Ideal) (grid0.coords t) (iblk m c 0 t) (iblk m c 1 t) (iblk m c 2 t) (Kvec m c (bOf t.val t.isLt)) (Vvec m c (bOf t.val t.isLt)) (ix2 (0 : Fin 1) d)
      = tileSum m c (bOf t.val t.isLt) (t.val % 4) d := by
  unfold partOf tileSum
  rw [pay7_at]
  refine Finset.sum_congr rfl fun r _ => ?_
  have hq : 512 * (t.val % 4) + r.val < 2048 := by have := r.isLt; omega
  refine congrArg (fun qv : Fin 1024 → EReal =>
    Cert.Attn.attRow qv (Kf m c (bOf t.val t.isLt)) (Vf m c (bOf t.val t.isLt)) d) ?_
  · unfold Qn
    rw [dif_pos hq]
    funext e
    show _ = Cert.Attn.proj (aX m c) (aWq m c) (abq m c) (bOf t.val t.isLt) ⟨512 * (t.val % 4) + r.val, hq⟩ e
    unfold Cert.Attn.proj
    rw [ld_bq, iblk2_eq, Vv3_q]
    congr 1
    refine Finset.sum_congr rfl fun h _ => ?_
    rw [ld_tile, iblk0_at, ld_Wq, iblk1_eq, Vv1_q]
    have hi : (⟨512 * (grid0.coords t 1).val + r.val, by have := coords_snd t; omega⟩ : Fin 2048) = ⟨512 * (t.val % 4) + r.val, hq⟩ :=
      Fin.ext (by show 512 * (grid0.coords t 1).val + r.val = _; rw [coords_snd t])
    rw [hi]
    rfl

/-! ## What the buffers hold after each point -/

/-- After point n: the keys and values of its batch element, the running sum after its tile, and at a last tile the
    output block. -/
theorem outs_inv (c : Dev nD) : ∀ (n : ℕ) (h : n < cfg0.N),
    (outsAt0 m c n h).2.1 = Kvec m c (bOf n h) ∧ (outsAt0 m c n h).2.2.1 = Vvec m c (bOf n h)
      ∧ (outsAt0 m c n h).2.2.2 = accVec m c (bOf n h) (n % 4)
      ∧ (n % 4 = 3 → (outsAt0 m c n h).1 = outVec m c (bOf n h)) := by
  intro n
  induction n with
  | zero =>
    intro h
    have h0 : (⟨0, h⟩ : Fin cfg0.N).val % 4 = 0 := rfl
    have hc0 := (hcond0_0 ⟨0, h⟩).mpr h0
    have hc1 : ¬cond0_1 (grid0.coords ⟨0, h⟩) := fun hh => by have := (hcond0_1 ⟨0, h⟩).mp hh; omega
    have e := outsAt0_A m c ⟨0, h⟩ h0 hc0 hc1
    rw [show outsAt0 m c 0 h = outsAt0 m c (⟨0, h⟩ : Fin cfg0.N).val (⟨0, h⟩ : Fin cfg0.N).isLt from rfl, e]
    dsimp only
    rw [sout0_A_0_eq, sout0_A_1_eq, sout0_A_2_eq, keys_eq, vals_eq]
    refine ⟨rfl, rfl, ?_, fun h3 => absurd h3 (by decide)⟩
    funext y
    obtain ⟨u, d, rfl⟩ : ∃ (u : Fin 1) (d : Fin 1024), y = ix2 u d := ⟨y 0, y 1, eq_ix2 y⟩
    obtain rfl : u = 0 := Subsingleton.elim _ _
    rw [pay1_at, pay6_at, part_eq]
    rfl
  | succ n ih =>
    intro h
    have hN : cfg0.N = 64 := N_0
    obtain ⟨ihK, ihV, ihA, -⟩ := ih (Nat.lt_of_succ_lt h)
    by_cases h0 : (n + 1) % 4 = 0
    · have hc0 := (hcond0_0 ⟨n + 1, h⟩).mpr h0
      have hc1 : ¬cond0_1 (grid0.coords ⟨n + 1, h⟩) := fun hh => by have := (hcond0_1 ⟨n + 1, h⟩).mp hh; (try dsimp only at this); omega
      have e := outsAt0_A m c ⟨n + 1, h⟩ h0 hc0 hc1
      rw [show outsAt0 m c (n + 1) h = outsAt0 m c (⟨n + 1, h⟩ : Fin cfg0.N).val (⟨n + 1, h⟩ : Fin cfg0.N).isLt from rfl, e]
      dsimp only
      rw [sout0_A_0_eq, sout0_A_1_eq, sout0_A_2_eq, keys_eq, vals_eq]
      refine ⟨rfl, rfl, ?_, fun h3 => absurd h3 (by omega)⟩
      funext y
      obtain ⟨u, d, rfl⟩ : ∃ (u : Fin 1) (d : Fin 1024), y = ix2 u d := ⟨y 0, y 1, eq_ix2 y⟩
      obtain rfl : u = 0 := Subsingleton.elim _ _
      rw [pay1_at, pay6_at, part_eq]
      show 0 + tileSum m c _ ((n + 1) % 4) d = accN m c _ ((n + 1) % 4) d
      rw [h0]
      rfl
    · have hc0 : ¬cond0_0 (grid0.coords ⟨n + 1, h⟩) := fun hh => h0 ((hcond0_0 ⟨n + 1, h⟩).mp hh)
      have hb : bOf n (Nat.lt_of_succ_lt h) = bOf (n + 1) h := Fin.ext (by show n / 4 = (n + 1) / 4; omega)
      have hj : (n + 1) % 4 = n % 4 + 1 := by omega
      rw [hb] at ihK ihV ihA
      have hprev : outsAt0 m c ((⟨n + 1, h⟩ : Fin cfg0.N).val - 1) (Nat.lt_of_le_of_lt (Nat.sub_le _ _) (⟨n + 1, h⟩ : Fin cfg0.N).isLt) = outsAt0 m c n (Nat.lt_of_succ_lt h) := rfl
      have hacc : ∀ d : Fin 1024, (k0_pay1 (F := Ideal) (partOf (grid0.coords ⟨n + 1, h⟩) (iblk m c 0 ⟨n + 1, h⟩) (iblk m c 1 ⟨n + 1, h⟩) (iblk m c 2 ⟨n + 1, h⟩) (Kvec m c (bOf (n + 1) h)) (Vvec m c (bOf (n + 1) h))) (accVec m c (bOf (n + 1) h) (n % 4))) (ix2 (0 : Fin 1) d)
          = accN m c (bOf (n + 1) h) ((n + 1) % 4) d := by
        intro d
        rw [pay1_at]
        have := part_eq m c ⟨n + 1, h⟩ d
        rw [this, hj]
        rfl
      by_cases h1 : (n + 1) % 4 = 3
      · have hc1 := (hcond0_1 ⟨n + 1, h⟩).mpr h1
        have e := outsAt0_C m c ⟨n + 1, h⟩ h0 h1 hc0 hc1
        rw [show outsAt0 m c (n + 1) h = outsAt0 m c (⟨n + 1, h⟩ : Fin cfg0.N).val (⟨n + 1, h⟩ : Fin cfg0.N).isLt from rfl, e, hprev]
        dsimp only
        rw [sout0_C_2_eq, out0_C_3_eq, ihK, ihV, ihA]
        refine ⟨rfl, rfl, ?_, fun _ => ?_⟩
        · funext y
          obtain ⟨u, d, rfl⟩ : ∃ (u : Fin 1) (d : Fin 1024), y = ix2 u d := ⟨y 0, y 1, eq_ix2 y⟩
          obtain rfl : u = 0 := Subsingleton.elim _ _
          exact hacc d
        · funext y
          obtain ⟨u, w, d, rfl⟩ : ∃ (u : Fin 1) (w : Fin 1) (d : Fin 1024), y = ix3 u w d := ⟨y 0, y 1, y 2, eq_ix3 y⟩
          obtain rfl : u = 0 := Subsingleton.elim _ _
          obtain rfl : w = 0 := Subsingleton.elim _ _
          rw [pay2_at, hacc d, h1]
          rfl
      · have hc1 : ¬cond0_1 (grid0.coords ⟨n + 1, h⟩) := fun hh => h1 ((hcond0_1 ⟨n + 1, h⟩).mp hh)
        have e := outsAt0_B m c ⟨n + 1, h⟩ h0 h1 hc0 hc1
        rw [show outsAt0 m c (n + 1) h = outsAt0 m c (⟨n + 1, h⟩ : Fin cfg0.N).val (⟨n + 1, h⟩ : Fin cfg0.N).isLt from rfl, e, hprev]
        dsimp only
        rw [sout0_B_2_eq, ihK, ihV, ihA]
        refine ⟨rfl, rfl, ?_, fun h3 => absurd h3 h1⟩
        funext y
        obtain ⟨u, d, rfl⟩ : ∃ (u : Fin 1) (d : Fin 1024), y = ix2 u d := ⟨y 0, y 1, eq_ix2 y⟩
        obtain rfl : u = 0 := Subsingleton.elim _ _
        exact hacc d

/-! ## The output array, the reshape after the region, and the run -/

/-- The output array after the run: at (n, 0, d) the running sum after the fourth tile of batch element n, scaled. -/
def resArr (c : Dev nD) : S16x1x1024.Idx → EReal := fun i => accN m c (i 0) 3 (i 2) * Cert.Attn.invSW

/-- The output window's block index at a point: the point's batch element along the first axis. -/
theorem idx3_facts : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

/-- What a last tile writes back is its batch element's block of `resArr`. -/
theorem flushed_eq (c : Dev nD) (t : Fin cfg0.N) (hf : (cfg0.win 3).flush t = true) :
    (dats m 0 c).flushed 3 t = ((cfg0.win 3).blk t).view.read (Elt Ideal) (resArr m c) := by
  have h3 : t.val % 4 = 3 := (flush0_3 t).mp hf
  show (cfg0.win 3).cut (grid0.coords t) ((dats m 0 c).after 3 t) = _
  rw [after0_3, (outs_inv m c t.val t.isLt).2.2.2 h3]
  obtain ⟨e0, e1, e2⟩ := idx3_facts t
  funext y
  show outVec m c (bOf t.val t.isLt) y = resArr m c (((cfg0.win 3).blk t).view.emb y)
  unfold outVec resArr
  have hy0 : (y 0).val < 1 := (y 0).isLt
  have hb : (((cfg0.win 3).blk t).view.emb y) 0 = bOf t.val t.isLt := Fin.ext (by
    show win0_3.index t (0 : Fin 3) * 1 + 1 * (y 0).val = t.val / 4; omega)
  have hd : (((cfg0.win 3).blk t).view.emb y) 2 = y 2 := Fin.ext (by
    show win0_3.index t (2 : Fin 3) * 1024 + 1 * (y 2).val = (y 2).val; omega)
  rw [hb, hd]

theorem mem_blk3 (t : Fin cfg0.N) (i : S16x1x1024.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v4).slice (win0_3.rect t)).set ↔ _
  rw [View.set_slice_whole, Rect.mem_set_unit]
  exact Iff.rfl

/-- The sixteen last tiles' blocks cover the output array: it ends holding `resArr`. -/
theorem final3 (c : Dev nD) : (dats m 0 c).arrAt 3 cfg0.N = resArr m c :=
  (dats m 0 c).arrAt_eq_of_cover 3 (resArr m c) (flushed_eq m c) fun i => by
    have hi0 : (i 0).val < 16 := (i 0).isLt
    have hi1 : (i 1).val < 1 := (i 1).isLt
    have hi2 : (i 2).val < 1024 := (i 2).isLt
    have hN : cfg0.N = 64 := N_0
    have hN' : grid0.N = 64 := N_0
    refine ⟨⟨4 * (i 0).val + 3, by omega⟩, (flush0_3 _).mpr (by show (4 * (i 0).val + 3) % 4 = 3; omega), ?_⟩
    rw [mem_blk3]
    obtain ⟨e0, e1, e2⟩ := idx3_facts ⟨4 * (i 0).val + 3, by omega⟩
    have e0' : win0_3.index ⟨4 * (i 0).val + 3, by omega⟩ (0 : Fin 3) = (i 0).val := by rw [e0]; show (4 * (i 0).val + 3) / 4 = _; omega
    intro a
    match a with
    | ⟨0, _⟩ => show win0_3.index _ (0 : Fin 3) * 1 ≤ (i 0).val ∧ (i 0).val < win0_3.index _ (0 : Fin 3) * 1 + 1; rw [e0']; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 1024 ≤ (i 2).val ∧ (i 2).val < win0_3.index _ (2 : Fin 3) * 1024 + 1024; rw [e2]; omega

/-- `resArr` is the specification's mean-pooled attention, with the unit axis. -/
theorem resArr_apply (c : Dev nD) (n : Fin 16) (d : Fin 1024) :
    resArr m c (ix3 n (0 : Fin 1) d) = Cert.Attn.pooled (Qf m c) (Kf m c) (Vf m c) n d := by
  show accN m c n 3 d * Cert.Attn.invSW = _
  rw [accN_three]
  rfl

end Cert.KernelIdeal.Val

end
-- ==== Proof.KIRun.lean ====
/-
  The run of the idealized attention kernel, read on the extended reals: after the reshape that follows the region the
  result buffer holds the specification's function of the seven argument arrays, and the arguments are as launched.
-/
import proofs.«128170_j66357244723910_2_alg».proof.Proof.KIValue

set_option maxRecDepth 16384

noncomputable section

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (ρ : Dev nD → PrngReg)
/-- The result buffer after the reshape that follows the region. -/
theorem tail_arr (c : Dev nD) :
    (Pipeline.afterTail₀ cfgs (dats m) 0 (V0 m) [hostOps1] c main_v5 : S16x1024.Idx → EReal)
      = shapeCast S16x1024 (resArr m c) shapeCasts_S16x1x1024_S16x1024 := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v4) = resArr m c :=
    (Pipeline.withArrays_arr spec0 launch0.win.arr_inj c (V0 m c) (fun w => (dats m 0 c).arrAt w cfg0.N) 3).trans (final3 m c)
  funext i
  show shapeCast S16x1024 (Pipeline.withArrays (cfgs 0).spec c (V0 m c) (fun w => (dats m 0 c).arrAt w (cfgs 0).N) (Proc.tc.devRef main_v4)) shapeCasts_S16x1x1024_S16x1024 i = _
  rw [hw]

/-- Dropping the unit axis: the result at (n, d) is the output array at (n, 0, d), the specification's value. -/
theorem tail_eq (c : Dev nD) :
    (Pipeline.afterTail₀ cfgs (dats m) 0 (V0 m) [hostOps1] c main_v5 : S16x1024.Idx → EReal)
      = Cert.Attn.G (aX m c) (aWq m c) (abq m c) (aWk m c) (abk m c) (aWv m c) (abv m c) := by
  rw [tail_arr]
  funext i
  obtain ⟨n, d, rfl⟩ : ∃ (n : Fin 16) (d : Fin 1024), i = ix2 n d := ⟨i 0, i 1, eq_ix2 i⟩
  rw [shapeCast_apply (resArr m c) shapeCasts_S16x1x1024_S16x1024 (ix2 n d) (ix3 n (0 : Fin 1) d) (by
    rw [Shape.rowMajor_val_two, Shape.rowMajor_val_three]
    show (n.val * 1 + 0) * 1024 + d.val = n.val * 1024 + d.val
    omega), resArr_apply]
  rfl

/-- The run, read: the result at the specification's function of the seven arguments, the arguments unchanged. -/
theorem kernel_run : θ_run defs (onTc (τ := τ) (main (F := Ideal))) ⟨m, fun _ => 0, ρ⟩ (fun r => ∀ c : Dev nD,
      r.2.mem ((c.tc : Thread nD τ).loc main_v5) = Cert.Attn.G (aX m c) (aWq m c) (abq m c) (aWk m c) (abk m c) (aWv m c) (abv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v5 (Pipeline.mem_restRefs_of main_v5 (by decide) (by decide))).trans (tail_eq m c),
    ((h c).1 0).trans (((dats m 0 c).arrAt_in 0 rfl _).trans ((A_eq m c 0).trans (V_main_arg0 m c))),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c))⟩) (run_main m ρ)

end Cert.KernelIdeal.Val

end
-- ==== Proof.LibOneBit.lean ====
/-
  GENERAL LEMMAS: a one-bit comparison result read as a number, and two f32 words on the extended reals. Nothing here
  mentions a program.

  * widened_signed: a one-bit word widened with zeros to 32 bits and read as a signed integer is the bit read as a natural
    number (0 or 1) — a kernel's mask (extend, then convert signed) against a host's (convert the bit unsigned).
  * cmp_one_eq_une: on the extended reals nothing is unordered, so "ordered and not equal" and "unordered or not equal"
    are the same comparison.
  * max_negInf_word: the f32 word of minus infinity is the least extended real, so a maximum met with it is unchanged.
  * zero_word: the f32 word of zero is the extended real zero.
-/
import Idealize.ShloMosaic.PureOps.Ideal
import Idealize.ShloMosaic.PureOps.Ideal.Laws

noncomputable section

namespace Cert.LibOneBit

open Idealize.ShloMosaic

/-- A one-bit word widened to 32 bits and read as a signed integer is the bit. -/
theorem widened_signed (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- Ordered-not-equal and unordered-or-not-equal are one comparison of extended reals. -/
theorem cmp_one_eq_une (x y : EReal) : Ideal.cmp .one x y = Ideal.cmp .une x y := rfl

/-- Minus infinity is the least extended real, so meeting it by max changes nothing. -/
theorem max_negInf_word (y : EReal) : max (Ideal.ofBits .f32 0xFF800000#32) y = y := by
  simp [Ideal.ofBits, Ideal.ieee]

/-- The f32 word of zero is the extended real zero. -/
theorem zero_word : Ideal.ofBits .f32 0x00000000#32 = (0 : EReal) := Ideal.ofBits_zero_f32

end Cert.LibOneBit

end
-- ==== Proof.LibMeanScale.lean ====
/-
  GENERAL LEMMAS: a mean written as a product with the reciprocal of a clamped count, against the quotient by the
  clamped count, on extended reals. Nothing here mentions a program.

  * one_word: the f32 word 0x3F800000 is the number 1.
  * max_one_ne_zero: a count clamped below by 1 is never zero, whatever the count is (an infinity included).
  * mul_recip_max: a * (1 / max e 1) = a / max e 1 for EVERY extended real a and e. The divisor max e 1 is at least 1, so
    neither quotient takes the division's zero-divisor branch, and both sides are a * (max e 1)⁻¹. No finiteness of a or of
    e is needed: when max e 1 is +inf both sides are a * 0.
  * scale_eq_div: the same law for arrays, entry by entry, when the scale's entry for index i is read at a source index
    f i (a broadcast), the word of 1 spelt as it is printed.
  * mean_scale: the law on whole arrays, in the host operations' spelling, for ANY shapes and ANY broadcast: sums times the
    broadcast of (one / max counts one) are the sums divided by the broadcast of (max counts one), when the array `one` holds 1
    everywhere. A broadcast only re-reads its operand at another index, so the law is the scalar one at every entry.
-/
import Idealize.ShloMosaic.PureOps.Ideal
import Idealize.ShloMosaic.Lib.ValueIdx

noncomputable section

namespace Cert.LibMeanScale

open Idealize.ShloMosaic

/-- The f32 word 0x3F800000 is 1. -/
theorem one_word : Ideal.ofBits .f32 0x3F800000#32 = 1 := by
  simp [Ideal.ofBits, Ideal.ieee, -EReal.coe_mul]; norm_num

/-- A count clamped below by 1 is not zero. -/
theorem max_one_ne_zero (e : EReal) : max e 1 ≠ 0 := by
  intro h
  have h1 : (1 : EReal) ≤ max e 1 := le_max_right e 1
  rw [h] at h1
  exact absurd h1 (not_le.mpr (by exact_mod_cast (zero_lt_one : (0 : ℝ) < 1)))

/-- The product with the reciprocal of a clamped count is the quotient by the clamped count, for every extended real. -/
theorem mul_recip_max (a e : EReal) : a * Ideal.div 1 (max e 1) = Ideal.div a (max e 1) := by
  rw [Ideal.div, if_neg (max_one_ne_zero e), one_mul, Ideal.div, if_neg (max_one_ne_zero e)]

/-- The same law entry by entry: the scale's entry for index i is read at f i, the number 1 is the printed word. -/
theorem scale_eq_div {ι κ : Type} (A : ι → EReal) (D : κ → EReal) (f : ι → κ) (i : ι) :
    A i * Ideal.div (Ideal.ofBits .f32 0x3F800000#32) (max (D (f i)) (Ideal.ofBits .f32 0x3F800000#32))
      = Ideal.div (A i) (max (D (f i)) (Ideal.ofBits .f32 0x3F800000#32)) := by
  rw [one_word]; exact mul_recip_max _ _

/-- The law on whole arrays, any shapes, any broadcast: sums times the broadcast reciprocal of the clamped counts are the sums
    divided by the broadcast clamped counts. -/
theorem mean_scale {S T : Shape} (dims : Fin T.rank → Fin S.rank) (hb : T.BroadcastsInDim S dims)
    (A : FVec Ideal S .f32) (D one : FVec Ideal T .f32) (hone : ∀ j, one j = 1) :
    mulf A (broadcastInDim S dims hb (Host.divf (F := Ideal) one (maximumf D one)))
      = Host.divf (F := Ideal) A (broadcastInDim S dims hb (maximumf D one)) := by
  funext i
  simp only [mulf, Host.divf, maximumf, broadcastInDim, Ideal.mulf_def, Ideal.hostDivf_def, Ideal.maximumf_def, hone]
  exact mul_recip_max _ _

end Cert.LibMeanScale

end
-- ==== Proof.RefIsSpec.lean ====
/-
  The reference program computes the specification.

  The reference is read one operation at a time, every operation at an index given by its coordinates, and each
  stage of the computation is identified with the matching stage of the specification: the three projections
  x·W + b, the score scale 1 / sqrt 1024 (which is the float word of 1/32), the scaled scores of a query row against
  the keys, the row's maximum (a running maximum from minus infinity, met once more with minus infinity), the
  exponentials of the scores less the maximum, their quotient by their sum (a sum started from zero), the weighted
  sum of the value rows, and the sum over the query rows divided by 2048 (which is the product with the float word of
  1/2048).  No law of arithmetic beyond 0 + s = s, max (-inf) y = y and a / c = a * (1 / c) for a nonzero real c is
  used: the two sides are the same expression, index by index.
-/
import proofs.«128170_j66357244723910_2_alg».proof.Proof.Gen.ReferenceIdeal.Read
import proofs.«128170_j66357244723910_2_alg».proof.Proof.AttnSpec
import proofs.«128170_j66357244723910_2_alg».proof.Proof.LibOneBit
import proofs.«128170_j66357244723910_2_alg».proof.Proof.LibMeanScale

noncomputable section

namespace Cert.ReferenceIdeal.RefValue

open Cert.ReferenceIdeal Cert.ReferenceIdeal.Read Idealize.ShloMosaic Idealize.ShloMosaic.ValueIdx
open scoped BigOperators

/-! ## The float words, evaluated -/

/-- The word of 1024.0 denotes the real 1024. -/
theorem word_1024 : Ideal.ofBits .f32 0x44800000#32 = ((1024 : ℝ) : EReal) := by
  simp [Ideal.ofBits, Ideal.ieee, -EReal.coe_mul]; norm_num

/-- The word of 0.03125 denotes the real 1/32: a power of two, so the binary value is the fraction exactly. -/
theorem word_inv32 : Ideal.ofBits .f32 0x3D000000#32 = ((1 / 32 : ℝ) : EReal) := by
  simp [Ideal.ofBits, Ideal.ieee, -EReal.coe_mul]; norm_num

/-- The word of 2048.0 denotes the real 2048. -/
theorem word_2048 : Ideal.ofBits .f32 0x45000000#32 = ((2048 : ℝ) : EReal) := by
  simp [Ideal.ofBits, Ideal.ieee, -EReal.coe_mul]; norm_num

/-- The word of 0.00048828125 denotes the real 1/2048, again a power of two. -/
theorem word_inv2048 : Ideal.ofBits .f32 0x3A000000#32 = ((1 / 2048 : ℝ) : EReal) := by
  simp [Ideal.ofBits, Ideal.ieee, -EReal.coe_mul]; norm_num

/-- 1024 is the square of 32. -/
theorem sqrt_1024 : Real.sqrt 1024 = 32 := by
  rw [show (1024 : ℝ) = 32 ^ 2 by norm_num]
  exact Real.sqrt_sq (by norm_num)

/-- One divided by the square root of 1024 is the word of 1/32. -/
theorem scale_word :
    Ideal.div (Ideal.ofBits .f32 0x3F800000#32) (Ideal.sqrt (Ideal.ofBits .f32 0x44800000#32)) = Cert.Attn.scaleW := by
  rw [word_1024, Ideal.sqrt_coe, if_neg (by norm_num), sqrt_1024, Ideal.div_coe (by norm_num),
    Cert.LibMeanScale.one_word, one_mul]
  exact word_inv32.symm

/-- Dividing by the word of 2048 is multiplying by the word of 1/2048, for every extended real. -/
theorem div_2048 (a : EReal) : Ideal.div a (Ideal.ofBits .f32 0x45000000#32) = a * Cert.Attn.invSW := by
  rw [word_2048, Ideal.div_coe (by norm_num)]
  exact congrArg (a * ·) word_inv2048.symm

/-! ## The arguments -/

variable (x0 : (⟨S16x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal))

/-! ## The three projections

Entry (n, s, d) of x·W + b: the contraction runs over the last axis of x and the first of W, and the bias, a vector
made a [1, 1, 1024] array and repeated over batch and rows, is read at column d. -/

/-- A projection's contraction reads x at (n, s, h) … -/
theorem lhs_proj (n : Fin 16) (s : Fin 2048) (d h : Fin 1024) :
    (fun a => match a with
      | ⟨0, _⟩ => ⟨((ix3 n s d) 0).val, ((ix3 n s d) 0).isLt⟩
      | ⟨1, _⟩ => ⟨((ix3 n s d) 1).val, ((ix3 n s d) 1).isLt⟩
      | ⟨2, _⟩ => ⟨h.val, h.isLt⟩ : S16x2048x1024.Idx) = ix3 n s h :=
  funext fun a => by match a with | ⟨0, _⟩ => rfl | ⟨1, _⟩ => rfl | ⟨2, _⟩ => rfl

/-- … and W at (h, d). -/
theorem rhs_proj (n : Fin 16) (s : Fin 2048) (d h : Fin 1024) :
    (fun a => match a with
      | ⟨0, _⟩ => ⟨h.val, h.isLt⟩
      | ⟨1, _⟩ => ⟨((ix3 n s d) 2).val, ((ix3 n s d) 2).isLt⟩ : S1024x1024.Idx) = ix2 h d :=
  funext fun a => by match a with | ⟨0, _⟩ => rfl | ⟨1, _⟩ => rfl

/-- The repeated bias is read at column d. -/
theorem bias_idx (n : Fin 16) (s : Fin 2048) (d : Fin 1024) : idx_main_v1 (idx_main_v2 (ix3 n s d)) = ix1 d :=
  funext fun a => by match a with | ⟨0, _⟩ => rfl

/-- The query projection. -/
theorem q_at (n : Fin 16) (s : Fin 2048) (d : Fin 1024) :
    val_main_v3 (F := Ideal) x0 x1 x2 (ix3 n s d) = Cert.Attn.proj x0 x1 x2 n s d := by
  rw [val_main_v3_apply, val_main_v0_apply, val_main_v2_apply, val_main_v1_apply]
  refine congrArg₂ (· + ·) (Finset.sum_congr rfl fun h _ => ?_) (congrArg x2 (bias_idx n s d))
  exact congrArg₂ (· * ·) (congrArg x0 (lhs_proj n s d h)) (congrArg x1 (rhs_proj n s d h))

/-- The key projection. -/
theorem k_at (n : Fin 16) (s : Fin 2048) (d : Fin 1024) :
    val_main_v7 (F := Ideal) x0 x3 x4 (ix3 n s d) = Cert.Attn.proj x0 x3 x4 n s d := by
  rw [val_main_v7_apply, val_main_v4_apply, val_main_v6_apply, val_main_v5_apply]
  refine congrArg₂ (· + ·) (Finset.sum_congr rfl fun h _ => ?_) (congrArg x4 (bias_idx n s d))
  exact congrArg₂ (· * ·) (congrArg x0 (lhs_proj n s d h)) (congrArg x3 (rhs_proj n s d h))

/-- The value projection. -/
theorem v_at (n : Fin 16) (s : Fin 2048) (d : Fin 1024) :
    val_main_v11 (F := Ideal) x0 x5 x6 (ix3 n s d) = Cert.Attn.proj x0 x5 x6 n s d := by
  rw [val_main_v11_apply, val_main_v8_apply, val_main_v10_apply, val_main_v9_apply]
  refine congrArg₂ (· + ·) (Finset.sum_congr rfl fun h _ => ?_) (congrArg x6 (bias_idx n s d))
  exact congrArg₂ (· * ·) (congrArg x0 (lhs_proj n s d h)) (congrArg x5 (rhs_proj n s d h))

/-! ## The scores -/

/-- The scale, repeated over the whole score array, is the word of 1/32 at every entry. -/
theorem scale_at (i : S16x2048x2048.Idx) : val_main_v15 (F := Ideal) i = Cert.Attn.scaleW := by
  rw [val_main_v15_apply, val_main_v13_apply, val_main_cst_0_apply, val_main_v12_apply, val_main_cst_apply]
  exact scale_word

/-- The scores' contraction reads the query row at (n, q, e) … -/
theorem lhs_score (n : Fin 16) (q k : Fin 2048) (e : Fin 1024) : lidx_main_v14 (ix3 n q k) e = ix3 n q e :=
  funext fun a => by match a with | ⟨0, _⟩ => rfl | ⟨1, _⟩ => rfl | ⟨2, _⟩ => rfl

/-- … and the key row at (n, k, e). -/
theorem rhs_score (n : Fin 16) (q k : Fin 2048) (e : Fin 1024) : ridx_main_v14 (ix3 n q k) e = ix3 n k e :=
  funext fun a => by match a with | ⟨0, _⟩ => rfl | ⟨1, _⟩ => rfl | ⟨2, _⟩ => rfl

/-- The scaled score of query row q against key row k, in batch element n. -/
theorem score_at (n : Fin 16) (q k : Fin 2048) :
    val_main_v16 (F := Ideal) x0 x1 x2 x3 x4 (ix3 n q k)
      = Cert.Attn.score (Cert.Attn.proj x0 x1 x2 n q) (Cert.Attn.proj x0 x3 x4 n) k := by
  rw [val_main_v16_apply, val_main_v14_apply, scale_at]
  refine congrArg (· * Cert.Attn.scaleW) (Finset.sum_congr rfl fun e _ => ?_)
  rw [lhs_score, rhs_score, q_at, k_at]

/-! ## The row maximum

A maximum over the key axis from the word of minus infinity, then met once more with a whole array of that word. -/

/-- The score array's key axis can be dropped. -/
theorem red_keys : S16x2048x2048.Reduces [2] S16x2048 := by decide

/-- Row (n, q) with key k put back on the dropped axis is (n, q, k). -/
theorem lift_keys (h : S16x2048x2048.Reduces [2] S16x2048) (n : Fin 16) (q k : Fin 2048) :
    h.lift (ix2 n q) k = ix3 n q k := by
  funext c
  refine Fin.ext ?_
  match c with
  | ⟨0, _⟩ => rfl
  | ⟨1, _⟩ => rfl
  | ⟨2, _⟩ => rfl

/-- The largest score of query row q. -/
theorem rowMax_at (n : Fin 16) (q : Fin 2048) :
    val_main_v19 (F := Ideal) x0 x1 x2 x3 x4 (ix2 n q)
      = Cert.Attn.rowMax (Cert.Attn.proj x0 x1 x2 n q) (Cert.Attn.proj x0 x3 x4 n) := by
  rw [val_main_v19_apply, val_main_v18_apply, val_main_cst_2_apply]
  refine (Cert.LibOneBit.max_negInf_word _).trans ?_
  refine (Host.reduce_eq_fold_single (FloatOps.maximumf (F := Ideal) (φ := .f32))
    (val_main_v16 (F := Ideal) x0 x1 x2 x3 x4) (val_main_cst_1 (F := Ideal)) Gen.reducesTo_S16x2048x2048_S16x2048_d2 red_keys Gen.h_S_
    (ix2 n q)).trans ?_
  refine congrArg (fun f : Fin 2048 → EReal => (Finset.univ : Finset (Fin 2048)).fold max Cert.Attn.negInfW f)
    (funext fun (k : Fin 2048) => ?_)
  exact (congrArg (val_main_v16 (F := Ideal) x0 x1 x2 x3 x4) (lift_keys red_keys n q k)).trans
    (score_at x0 x1 x2 x3 x4 n q k)

/-! ## The softmax weights -/

/-- The row maximum, made a column and repeated along the keys, is read at (n, q). -/
theorem col_idx (n : Fin 16) (q k : Fin 2048) : idx_main_v20 (idx_main_v21 (ix3 n q k)) = ix2 n q :=
  funext fun a => by match a with | ⟨0, _⟩ => rfl | ⟨1, _⟩ => rfl

/-- exp (score - max). -/
theorem expo_at (n : Fin 16) (q k : Fin 2048) :
    val_main_v23 (F := Ideal) x0 x1 x2 x3 x4 (ix3 n q k)
      = Cert.Attn.expo (Cert.Attn.proj x0 x1 x2 n q) (Cert.Attn.proj x0 x3 x4 n) k := by
  rw [val_main_v23_apply, val_main_v22_apply, val_main_v21_apply, val_main_v20_apply, col_idx, rowMax_at, score_at]
  rfl

/-- The sum over the keys reads (n, q, k'). -/
theorem sum_idx (n : Fin 16) (q k' : Fin 2048) : idx_main_v24 (ix2 n q) k' = ix3 n q k' :=
  funext fun a => by match a with | ⟨0, _⟩ => rfl | ⟨1, _⟩ => rfl | ⟨2, _⟩ => rfl

/-- The row sum, made a column and repeated along the keys, is read at (n, q). -/
theorem col_idx' (n : Fin 16) (q k : Fin 2048) : idx_main_v25 (idx_main_v26 (ix3 n q k)) = ix2 n q :=
  funext fun a => by match a with | ⟨0, _⟩ => rfl | ⟨1, _⟩ => rfl

/-- The row's sum of exponentials: a sum started from the word of zero. -/
theorem expSum_at (n : Fin 16) (q : Fin 2048) :
    val_main_v24 (F := Ideal) x0 x1 x2 x3 x4 (ix2 n q)
      = ∑ k' : Fin 2048, Cert.Attn.expo (Cert.Attn.proj x0 x1 x2 n q) (Cert.Attn.proj x0 x3 x4 n) k' := by
  rw [val_main_v24_apply, val_main_cst_3_apply]
  refine (congrArg (· + _) Cert.LibOneBit.zero_word).trans ((zero_add _).trans ?_)
  refine Finset.sum_congr rfl fun k' _ => ?_
  rw [sum_idx, expo_at]

/-- The softmax weight of key k. -/
theorem weight_at (n : Fin 16) (q k : Fin 2048) :
    val_main_v27 (F := Ideal) x0 x1 x2 x3 x4 (ix3 n q k)
      = Cert.Attn.weight (Cert.Attn.proj x0 x1 x2 n q) (Cert.Attn.proj x0 x3 x4 n) k := by
  rw [val_main_v27_apply, val_main_v26_apply, val_main_v25_apply, col_idx', expSum_at, expo_at]
  rfl

/-! ## The attended rows and their mean -/

/-- The weighted sum's contraction reads the weights at (n, q, k) … -/
theorem lhs_att (n : Fin 16) (q : Fin 2048) (d : Fin 1024) (k : Fin 2048) : lidx_main_v28 (ix3 n q d) k = ix3 n q k :=
  funext fun a => by match a with | ⟨0, _⟩ => rfl | ⟨1, _⟩ => rfl | ⟨2, _⟩ => rfl

/-- … and the value rows at (n, k, d). -/
theorem rhs_att (n : Fin 16) (q : Fin 2048) (d : Fin 1024) (k : Fin 2048) : ridx_main_v28 (ix3 n q d) k = ix3 n k d :=
  funext fun a => by match a with | ⟨0, _⟩ => rfl | ⟨1, _⟩ => rfl | ⟨2, _⟩ => rfl

/-- The attended vector of query row q at column d. -/
theorem attRow_at (n : Fin 16) (q : Fin 2048) (d : Fin 1024) :
    val_main_v28 (F := Ideal) x0 x1 x2 x3 x4 x5 x6 (ix3 n q d)
      = Cert.Attn.attRow (Cert.Attn.proj x0 x1 x2 n q) (Cert.Attn.proj x0 x3 x4 n) (Cert.Attn.proj x0 x5 x6 n) d := by
  rw [val_main_v28_apply]
  refine Finset.sum_congr rfl fun k _ => ?_
  rw [lhs_att, rhs_att, weight_at, v_at]

/-- The sum over the query rows reads (n, q, d). -/
theorem rows_idx (n : Fin 16) (d : Fin 1024) (q : Fin 2048) : idx_main_v29 (ix2 n d) q = ix3 n q d :=
  funext fun a => by match a with | ⟨0, _⟩ => rfl | ⟨1, _⟩ => rfl | ⟨2, _⟩ => rfl

/-- The mean over the query rows: the sum, started from the word of zero, divided by the word of 2048. -/
theorem pooled_at (n : Fin 16) (d : Fin 1024) :
    val_main_v31 (F := Ideal) x0 x1 x2 x3 x4 x5 x6 (ix2 n d)
      = Cert.Attn.pooled (Cert.Attn.proj x0 x1 x2) (Cert.Attn.proj x0 x3 x4) (Cert.Attn.proj x0 x5 x6) n d := by
  rw [val_main_v31_apply, val_main_v30_apply, val_main_cst_5_apply, val_main_v29_apply, val_main_cst_4_apply]
  refine (div_2048 _).trans (congrArg (· * Cert.Attn.invSW) ?_)
  refine (congrArg (· + _) Cert.LibOneBit.zero_word).trans ((zero_add _).trans ?_)
  refine Finset.sum_congr rfl fun q _ => ?_
  rw [rows_idx, attRow_at]

/-! ## The whole function -/

/-- The reference's result is the specification of its seven arguments. -/
theorem ref_is_G :
    val_main_v31 (F := Ideal) x0 x1 x2 x3 x4 x5 x6 = Cert.Attn.G x0 x1 x2 x3 x4 x5 x6 := by
  funext i
  obtain ⟨n, d, rfl⟩ : ∃ (n : Fin 16) (d : Fin 1024), i = ix2 n d := ⟨i 0, i 1, eq_ix2 i⟩
  exact pooled_at x0 x1 x2 x3 x4 x5 x6 n d

end Cert.ReferenceIdeal.RefValue

end
-- ==== Proof.lean ====
/-
  The certificate of the fused attention kernel against its jnp reference.

  The kernel projects queries, keys and values of a [16, 2048, 1024] input with three [1024, 1024] weight matrices and
  biases, attends every query row to the 2048 keys of its batch element (scores scaled by 1/32, softmax, weighted sum of
  the values) and averages the attended rows of a batch element.  It does so on a 16 × 4 grid: the first of a batch
  element's four points fills a key and a value scratch, every point adds the column sums of its 512 query rows to a
  running sum, the last scales it by 1/2048 and writes the element's block.  The reference is the same computation as
  whole-array operations.

  * The two kernels' frames: the body run symbolically once per control case, the three scratch buffers carried from
    point to point by the region's invariant (the modules KKit … KFrame for the program as printed, KIKit … KIFrame
    for its idealization: one text at two instances).
  * The reference's frame: its run with the result dropped.
  * The idealization rewrote no operation: nothing to preserve.
  * On the extended reals both programs compute `Cert.Attn.G` of the seven arguments (AttnSpec): the kernel because
    the found stores are the projection and attention payloads of the blocks, the joined weights and biases read back
    column block by column block, and four tiles of 512 rows are the 2048 rows (KIPieces, LoadsAt, PayloadAt,
    KIValue); the reference operation by operation (RefIsSpec), where 1/sqrt(1024) is the word of 1/32, a maximum with
    -inf is the identity, and a quotient by 2048 is the product with the word of 1/2048.  No law used needs the inputs
    to be finite.
-/
import proofs.«128170_j66357244723910_2_alg».proof.Defs
import proofs.«128170_j66357244723910_2_alg».proof.Proof.KFrame
import proofs.«128170_j66357244723910_2_alg».proof.Proof.KIFrame
import proofs.«128170_j66357244723910_2_alg».proof.Proof.KIRun
import proofs.«128170_j66357244723910_2_alg».proof.Proof.RefIsSpec
import proofs.«128170_j66357244723910_2_alg».proof.Proof.Gen.ReferenceIdeal.Read
import proofs.«128170_j66357244723910_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of arguments that agree. -/
theorem algebraic : Cert.algebraic_KernelIdeal_ReferenceIdeal := by
  intro m ρ m' ρ' _ hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_is_G,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
